-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S128x512 : Shape := ⟨2, ![128, 512]⟩
abbrev S128 : Shape := ⟨1, ![128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x64 .f32) (main_arg1 : IVec S2x800000 32) (main_arg2 : FVec F S128x512 .f32) (main_arg3 : FVec F S128 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S128x512 .f32 := Host.absf main_arg2
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x64 : Shape := ⟨2, ![50000, 64]⟩
abbrev S2x800000 : Shape := ⟨2, ![2, 800000]⟩
abbrev S128x512 : Shape := ⟨2, ![128, 512]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S50000x1 : Shape := ⟨2, ![50000, 1]⟩
abbrev S50000x128 : Shape := ⟨2, ![50000, 128]⟩
abbrev S800000x128 : Shape := ⟨2, ![800000, 128]⟩
abbrev S50000x256 : Shape := ⟨2, ![50000, 256]⟩
abbrev S128x256 : Shape := ⟨2, ![128, 256]⟩
abbrev S256x128 : Shape := ⟨2, ![256, 128]⟩
abbrev S256x256 : Shape := ⟨2, ![256, 256]⟩
abbrev S1x128 : Shape := ⟨2, ![1, 128]⟩
abbrev S5000x256 : Shape := ⟨2, ![5000, 256]⟩

abbrev nBuf : Space → Nat
  | .hbm => 140
  | .vmem => 5
  | .smem => 0
  | _ => 0

abbrev hbmTy0_0 (i : Nat) : BufTy := match i % 128 with
  | 0 => ⟨S50000x64, .f32⟩
  | 1 => ⟨S2x800000, .i32⟩
  | 2 => ⟨S128x512, .f32⟩
  | 3 => ⟨S128, .f32⟩
  | 4 => ⟨S1x800000, .i32⟩
  | 5 => ⟨S800000, .i32⟩
  | 6 => ⟨S1x800000, .i32⟩
  | 7 => ⟨S800000, .i32⟩
  | 8 => ⟨S_, .f32⟩
  | 9 => ⟨S800000, .f32⟩
  | 10 => ⟨S_, .f32⟩
  | 11 => ⟨S50000, .f32⟩
  | 12 => ⟨S800000x1, .i32⟩
  | 13 => ⟨S50000, .f32⟩
  | 14 => ⟨S_, .f32⟩
  | 15 => ⟨S50000, .f32⟩
  | 16 => ⟨S800000x1, .i32⟩
  | 17 => ⟨S50000, .f32⟩
  | 18 => ⟨S_, .f32⟩
  | 19 => ⟨S50000, .f32⟩
  | 20 => ⟨S50000, .f32⟩
  | 21 => ⟨S_, .f32⟩
  | 22 => ⟨S50000, .f32⟩
  | 23 => ⟨S50000, .f32⟩
  | 24 => ⟨S_, .f32⟩
  | 25 => ⟨S50000, .f32⟩
  | 26 => ⟨S50000, .f32⟩
  | 27 => ⟨S_, .f32⟩
  | 28 => ⟨S50000, .f32⟩
  | 29 => ⟨S50000, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x64, .f32⟩
  | 39 => ⟨S_, .f32⟩
  | 40 => ⟨S50000x64, .f32⟩
  | 41 => ⟨S800000x1, .i32⟩
  | 42 => ⟨S50000x64, .f32⟩
  | 43 => ⟨S50000x1, .f32⟩
  | 44 => ⟨S50000x64, .f32⟩
  | 45 => ⟨S50000x64, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x64, .f32⟩
  | 55 => ⟨S_, .f32⟩
  | 56 => ⟨S50000x64, .f32⟩
  | 57 => ⟨S800000x1, .i32⟩
  | 58 => ⟨S50000x64, .f32⟩
  | 59 => ⟨S50000x1, .f32⟩
  | 60 => ⟨S50000x64, .f32⟩
  | 61 => ⟨S50000x64, .f32⟩
  | 62 => ⟨S50000x128, .f32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000x128, .f32⟩
  | 72 => ⟨S_, .f32⟩
  | 73 => ⟨S50000x128, .f32⟩
  | 74 => ⟨S800000x1, .i32⟩
  | 75 => ⟨S50000x128, .f32⟩
  | 76 => ⟨S50000x1, .f32⟩
  | 77 => ⟨S50000x128, .f32⟩
  | 78 => ⟨S50000x128, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x128, .f32⟩
  | 88 => ⟨S_, .f32⟩
  | 89 => ⟨S50000x128, .f32⟩
  | 90 => ⟨S800000x1, .i32⟩
  | 91 => ⟨S50000x128, .f32⟩
  | 92 => ⟨S50000x1, .f32⟩
  | 93 => ⟨S50000x128, .f32⟩
  | 94 => ⟨S50000x128, .f32⟩
  | 95 => ⟨S50000x256, .f32⟩
  | 96 => ⟨S128x256, .f32⟩
  | 97 => ⟨S256x128, .f32⟩
  | 98 => ⟨S128x256, .f32⟩
  | 99 => ⟨S256x128, .f32⟩
  | 100 => ⟨S256x256, .f32⟩
  | 101 => ⟨S50000x256, .f32⟩
  | 102 => ⟨S50000x128, .f32⟩
  | 103 => ⟨S50000x128, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x128, .f32⟩
  | 113 => ⟨S_, .f32⟩
  | 114 => ⟨S50000x128, .f32⟩
  | 115 => ⟨S800000x1, .i32⟩
  | 116 => ⟨S50000x128, .f32⟩
  | 117 => ⟨S50000x1, .f32⟩
  | 118 => ⟨S50000x128, .f32⟩
  | 119 => ⟨S50000x128, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x64, .f32⟩

abbrev hbmTy0_1 (i : Nat) : BufTy := match i % 128 with
  | 0 => ⟨S800000x128, .f32⟩
  | 1 => ⟨S_, .f32⟩
  | 2 => ⟨S50000x128, .f32⟩
  | 3 => ⟨S800000x1, .i32⟩
  | 4 => ⟨S50000x128, .f32⟩
  | 5 => ⟨S50000x1, .f32⟩
  | 6 => ⟨S50000x128, .f32⟩
  | 7 => ⟨S50000x128, .f32⟩
  | 8 => ⟨S50000x128, .f32⟩
  | 9 => ⟨S1x128, .f32⟩
  | 10 => ⟨S50000x128, .f32⟩
  | 11 => ⟨S50000x128, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x256, .f32⟩
  | .local _ .vmem, ⟨4, _⟩ => ⟨S5000x256, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_cst : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_cst_2 : Ref sig .tc := ⟨.hbm, 18, rfl⟩
abbrev main_call0_v11 : Ref sig .tc := ⟨.hbm, 19, rfl⟩
abbrev main_call0_v12 : Ref sig .tc := ⟨.hbm, 20, rfl⟩
abbrev main_call0_cst_3 : Ref sig .tc := ⟨.hbm, 21, rfl⟩
abbrev main_call0_v13 : Ref sig .tc := ⟨.hbm, 22, rfl⟩
abbrev main_call0_v14 : Ref sig .tc := ⟨.hbm, 23, rfl⟩
abbrev main_call0_cst_4 : Ref sig .tc := ⟨.hbm, 24, rfl⟩
abbrev main_call0_v15 : Ref sig .tc := ⟨.hbm, 25, rfl⟩
abbrev main_call0_v16 : Ref sig .tc := ⟨.hbm, 26, rfl⟩
abbrev main_call0_cst_5 : Ref sig .tc := ⟨.hbm, 27, rfl⟩
abbrev main_call0_v17 : Ref sig .tc := ⟨.hbm, 28, rfl⟩
abbrev main_call0_v18 : Ref sig .tc := ⟨.hbm, 29, rfl⟩
abbrev main_call0_c : Ref sig .tc := ⟨.hbm, 30, rfl⟩
abbrev main_call0_v19 : Ref sig .tc := ⟨.hbm, 31, rfl⟩
abbrev main_call0_v20 : Ref sig .tc := ⟨.hbm, 32, rfl⟩
abbrev main_call0_c_6 : Ref sig .tc := ⟨.hbm, 33, rfl⟩
abbrev main_call0_v21 : Ref sig .tc := ⟨.hbm, 34, rfl⟩
abbrev main_call0_v22 : Ref sig .tc := ⟨.hbm, 35, rfl⟩
abbrev main_call0_v23 : Ref sig .tc := ⟨.hbm, 36, rfl⟩
abbrev main_call0_v24 : Ref sig .tc := ⟨.hbm, 37, rfl⟩
abbrev main_call0_v25 : Ref sig .tc := ⟨.hbm, 38, rfl⟩
abbrev main_call0_cst_7 : Ref sig .tc := ⟨.hbm, 39, rfl⟩
abbrev main_call0_v26 : Ref sig .tc := ⟨.hbm, 40, rfl⟩
abbrev main_call0_v27 : Ref sig .tc := ⟨.hbm, 41, rfl⟩
abbrev main_call0_v28 : Ref sig .tc := ⟨.hbm, 42, rfl⟩
abbrev main_call0_v29 : Ref sig .tc := ⟨.hbm, 43, rfl⟩
abbrev main_call0_v30 : Ref sig .tc := ⟨.hbm, 44, rfl⟩
abbrev main_call0_v31 : Ref sig .tc := ⟨.hbm, 45, rfl⟩
abbrev main_call0_c_8 : Ref sig .tc := ⟨.hbm, 46, rfl⟩
abbrev main_call0_v32 : Ref sig .tc := ⟨.hbm, 47, rfl⟩
abbrev main_call0_v33 : Ref sig .tc := ⟨.hbm, 48, rfl⟩
abbrev main_call0_c_9 : Ref sig .tc := ⟨.hbm, 49, rfl⟩
abbrev main_call0_v34 : Ref sig .tc := ⟨.hbm, 50, rfl⟩
abbrev main_call0_v35 : Ref sig .tc := ⟨.hbm, 51, rfl⟩
abbrev main_call0_v36 : Ref sig .tc := ⟨.hbm, 52, rfl⟩
abbrev main_call0_v37 : Ref sig .tc := ⟨.hbm, 53, rfl⟩
abbrev main_call0_v38 : Ref sig .tc := ⟨.hbm, 54, rfl⟩
abbrev main_call0_cst_10 : Ref sig .tc := ⟨.hbm, 55, rfl⟩
abbrev main_call0_v39 : Ref sig .tc := ⟨.hbm, 56, rfl⟩
abbrev main_call0_v40 : Ref sig .tc := ⟨.hbm, 57, rfl⟩
abbrev main_call0_v41 : Ref sig .tc := ⟨.hbm, 58, rfl⟩
abbrev main_call0_v42 : Ref sig .tc := ⟨.hbm, 59, rfl⟩
abbrev main_call0_v43 : Ref sig .tc := ⟨.hbm, 60, rfl⟩
abbrev main_call0_v44 : Ref sig .tc := ⟨.hbm, 61, rfl⟩
abbrev main_call0_v45 : Ref sig .tc := ⟨.hbm, 62, rfl⟩
abbrev main_call0_c_11 : Ref sig .tc := ⟨.hbm, 63, rfl⟩
abbrev main_call0_v46 : Ref sig .tc := ⟨.hbm, 64, rfl⟩
abbrev main_call0_v47 : Ref sig .tc := ⟨.hbm, 65, rfl⟩
abbrev main_call0_c_12 : Ref sig .tc := ⟨.hbm, 66, rfl⟩
abbrev main_call0_v48 : Ref sig .tc := ⟨.hbm, 67, rfl⟩
abbrev main_call0_v49 : Ref sig .tc := ⟨.hbm, 68, rfl⟩
abbrev main_call0_v50 : Ref sig .tc := ⟨.hbm, 69, rfl⟩
abbrev main_call0_v51 : Ref sig .tc := ⟨.hbm, 70, rfl⟩
abbrev main_call0_v52 : Ref sig .tc := ⟨.hbm, 71, rfl⟩
abbrev main_call0_cst_13 : Ref sig .tc := ⟨.hbm, 72, rfl⟩
abbrev main_call0_v53 : Ref sig .tc := ⟨.hbm, 73, rfl⟩
abbrev main_call0_v54 : Ref sig .tc := ⟨.hbm, 74, rfl⟩
abbrev main_call0_v55 : Ref sig .tc := ⟨.hbm, 75, rfl⟩
abbrev main_call0_v56 : Ref sig .tc := ⟨.hbm, 76, rfl⟩
abbrev main_call0_v57 : Ref sig .tc := ⟨.hbm, 77, rfl⟩
abbrev main_call0_v58 : Ref sig .tc := ⟨.hbm, 78, rfl⟩
abbrev main_call0_c_14 : Ref sig .tc := ⟨.hbm, 79, rfl⟩
abbrev main_call0_v59 : Ref sig .tc := ⟨.hbm, 80, rfl⟩
abbrev main_call0_v60 : Ref sig .tc := ⟨.hbm, 81, rfl⟩
abbrev main_call0_c_15 : Ref sig .tc := ⟨.hbm, 82, rfl⟩
abbrev main_call0_v61 : Ref sig .tc := ⟨.hbm, 83, rfl⟩
abbrev main_call0_v62 : Ref sig .tc := ⟨.hbm, 84, rfl⟩
abbrev main_call0_v63 : Ref sig .tc := ⟨.hbm, 85, rfl⟩
abbrev main_call0_v64 : Ref sig .tc := ⟨.hbm, 86, rfl⟩
abbrev main_call0_v65 : Ref sig .tc := ⟨.hbm, 87, rfl⟩
abbrev main_call0_cst_16 : Ref sig .tc := ⟨.hbm, 88, rfl⟩
abbrev main_call0_v66 : Ref sig .tc := ⟨.hbm, 89, rfl⟩
abbrev main_call0_v67 : Ref sig .tc := ⟨.hbm, 90, rfl⟩
abbrev main_call0_v68 : Ref sig .tc := ⟨.hbm, 91, rfl⟩
abbrev main_call0_v69 : Ref sig .tc := ⟨.hbm, 92, rfl⟩
abbrev main_call0_v70 : Ref sig .tc := ⟨.hbm, 93, rfl⟩
abbrev main_call0_v71 : Ref sig .tc := ⟨.hbm, 94, rfl⟩
abbrev main_call0_v72 : Ref sig .tc := ⟨.hbm, 95, rfl⟩
abbrev main_call0_v73 : Ref sig .tc := ⟨.hbm, 96, rfl⟩
abbrev main_call0_v74 : Ref sig .tc := ⟨.hbm, 97, rfl⟩
abbrev main_call0_v75 : Ref sig .tc := ⟨.hbm, 98, rfl⟩
abbrev main_call0_v76 : Ref sig .tc := ⟨.hbm, 99, rfl⟩
abbrev main_call0_v77 : Ref sig .tc := ⟨.hbm, 100, rfl⟩
abbrev main_call0_v78 : Ref sig .tc := ⟨.hbm, 101, rfl⟩
abbrev main_call0_v79 : Ref sig .tc := ⟨.hbm, 102, rfl⟩
abbrev main_call0_v80 : Ref sig .tc := ⟨.hbm, 103, rfl⟩
abbrev main_call0_c_17 : Ref sig .tc := ⟨.hbm, 104, rfl⟩
abbrev main_call0_v81 : Ref sig .tc := ⟨.hbm, 105, rfl⟩
abbrev main_call0_v82 : Ref sig .tc := ⟨.hbm, 106, rfl⟩
abbrev main_call0_c_18 : Ref sig .tc := ⟨.hbm, 107, rfl⟩
abbrev main_call0_v83 : Ref sig .tc := ⟨.hbm, 108, rfl⟩
abbrev main_call0_v84 : Ref sig .tc := ⟨.hbm, 109, rfl⟩
abbrev main_call0_v85 : Ref sig .tc := ⟨.hbm, 110, rfl⟩
abbrev main_call0_v86 : Ref sig .tc := ⟨.hbm, 111, rfl⟩
abbrev main_call0_v87 : Ref sig .tc := ⟨.hbm, 112, rfl⟩
abbrev main_call0_cst_19 : Ref sig .tc := ⟨.hbm, 113, rfl⟩
abbrev main_call0_v88 : Ref sig .tc := ⟨.hbm, 114, rfl⟩
abbrev main_call0_v89 : Ref sig .tc := ⟨.hbm, 115, rfl⟩
abbrev main_call0_v90 : Ref sig .tc := ⟨.hbm, 116, rfl⟩
abbrev main_call0_v91 : Ref sig .tc := ⟨.hbm, 117, rfl⟩
abbrev main_call0_v92 : Ref sig .tc := ⟨.hbm, 118, rfl⟩
abbrev main_call0_v93 : Ref sig .tc := ⟨.hbm, 119, rfl⟩
abbrev main_call0_c_20 : Ref sig .tc := ⟨.hbm, 120, rfl⟩
abbrev main_call0_v94 : Ref sig .tc := ⟨.hbm, 121, rfl⟩
abbrev main_call0_v95 : Ref sig .tc := ⟨.hbm, 122, rfl⟩
abbrev main_call0_c_21 : Ref sig .tc := ⟨.hbm, 123, rfl⟩
abbrev main_call0_v96 : Ref sig .tc := ⟨.hbm, 124, rfl⟩
abbrev main_call0_v97 : Ref sig .tc := ⟨.hbm, 125, rfl⟩
abbrev main_call0_v98 : Ref sig .tc := ⟨.hbm, 126, rfl⟩
abbrev main_call0_v99 : Ref sig .tc := ⟨.hbm, 127, rfl⟩
abbrev main_call0_v100 : Ref sig .tc := ⟨.hbm, 128, rfl⟩
abbrev main_call0_cst_22 : Ref sig .tc := ⟨.hbm, 129, rfl⟩
abbrev main_call0_v101 : Ref sig .tc := ⟨.hbm, 130, rfl⟩
abbrev main_call0_v102 : Ref sig .tc := ⟨.hbm, 131, rfl⟩
abbrev main_call0_v103 : Ref sig .tc := ⟨.hbm, 132, rfl⟩
abbrev main_call0_v104 : Ref sig .tc := ⟨.hbm, 133, rfl⟩
abbrev main_call0_v105 : Ref sig .tc := ⟨.hbm, 134, rfl⟩
abbrev main_call0_v106 : Ref sig .tc := ⟨.hbm, 135, rfl⟩
abbrev main_call0_v107 : Ref sig .tc := ⟨.hbm, 136, rfl⟩
abbrev main_call0_v108 : Ref sig .tc := ⟨.hbm, 137, rfl⟩
abbrev main_call0_v109 : Ref sig .tc := ⟨.hbm, 138, rfl⟩
abbrev main_v0 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  concatenates_S50000x64_S50000x64_S50000x128_d1 : Shape.Concatenates [S50000x64, S50000x64] S50000x128 1
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  slices_S128x512_S128x256_0_0 : S128x512.Slices ![0, 0] S128x256
  transposes_S128x256_S256x128_1_0 : S128x256.Transposes [1, 0] S256x128
  slices_S128x512_S128x256_0_256 : S128x512.Slices ![0, 256] S128x256
  concatenates_S256x128_S256x128_S256x256_d1 : Shape.Concatenates [S256x128, S256x128] S256x256 1
  slices_S50000x256_S50000x128_0_0 : S50000x256.Slices ![0, 0] S50000x128
  slices_S50000x256_S50000x128_0_128 : S50000x256.Slices ![0, 128] S50000x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x256_S256x256_S5000x256_1_0_0_1_n_n_wf : DotDims.WF S5000x256 S256x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf

abbrev win0_0 : Pipeline.Window sig grid0 :=
  Pipeline.Window.ofSpec (Memref.whole main_call0_v72) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v77) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v78) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S128x512 : Shape := ⟨2, ![128, 512]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S50000x1 : Shape := ⟨2, ![50000, 1]⟩
abbrev S50000x128 : Shape := ⟨2, ![50000, 128]⟩
abbrev S800000x128 : Shape := ⟨2, ![800000, 128]⟩
abbrev S50000x256 : Shape := ⟨2, ![50000, 256]⟩
abbrev S800000x256 : Shape := ⟨2, ![800000, 256]⟩
abbrev S50000x512 : Shape := ⟨2, ![50000, 512]⟩
abbrev S512x128 : Shape := ⟨2, ![512, 128]⟩
abbrev S1x128 : Shape := ⟨2, ![1, 128]⟩

abbrev nBuf : Space → Nat
  | .hbm => 134
  | .vmem => 0
  | .smem => 0
  | _ => 0

abbrev hbmTy0_0 (i : Nat) : BufTy := match i % 128 with
  | 0 => ⟨S50000x64, .f32⟩
  | 1 => ⟨S2x800000, .i32⟩
  | 2 => ⟨S128x512, .f32⟩
  | 3 => ⟨S128, .f32⟩
  | 4 => ⟨S1x800000, .i32⟩
  | 5 => ⟨S800000, .i32⟩
  | 6 => ⟨S1x800000, .i32⟩
  | 7 => ⟨S800000, .i32⟩
  | 8 => ⟨S_, .f32⟩
  | 9 => ⟨S800000, .f32⟩
  | 10 => ⟨S_, .f32⟩
  | 11 => ⟨S50000, .f32⟩
  | 12 => ⟨S800000x1, .i32⟩
  | 13 => ⟨S50000, .f32⟩
  | 14 => ⟨S_, .f32⟩
  | 15 => ⟨S50000, .f32⟩
  | 16 => ⟨S800000x1, .i32⟩
  | 17 => ⟨S50000, .f32⟩
  | 18 => ⟨S_, .f32⟩
  | 19 => ⟨S50000, .f32⟩
  | 20 => ⟨S50000, .f32⟩
  | 21 => ⟨S_, .f32⟩
  | 22 => ⟨S50000, .f32⟩
  | 23 => ⟨S50000, .f32⟩
  | 24 => ⟨S_, .f32⟩
  | 25 => ⟨S50000, .f32⟩
  | 26 => ⟨S50000, .f32⟩
  | 27 => ⟨S_, .f32⟩
  | 28 => ⟨S50000, .f32⟩
  | 29 => ⟨S50000, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x64, .f32⟩
  | 39 => ⟨S_, .f32⟩
  | 40 => ⟨S50000x64, .f32⟩
  | 41 => ⟨S800000x1, .i32⟩
  | 42 => ⟨S50000x64, .f32⟩
  | 43 => ⟨S50000x1, .f32⟩
  | 44 => ⟨S50000x64, .f32⟩
  | 45 => ⟨S50000x64, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x64, .f32⟩
  | 55 => ⟨S_, .f32⟩
  | 56 => ⟨S50000x64, .f32⟩
  | 57 => ⟨S800000x1, .i32⟩
  | 58 => ⟨S50000x64, .f32⟩
  | 59 => ⟨S50000x1, .f32⟩
  | 60 => ⟨S50000x64, .f32⟩
  | 61 => ⟨S50000x64, .f32⟩
  | 62 => ⟨S50000x128, .f32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000x128, .f32⟩
  | 72 => ⟨S_, .f32⟩
  | 73 => ⟨S50000x128, .f32⟩
  | 74 => ⟨S800000x1, .i32⟩
  | 75 => ⟨S50000x128, .f32⟩
  | 76 => ⟨S50000x1, .f32⟩
  | 77 => ⟨S50000x128, .f32⟩
  | 78 => ⟨S50000x128, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x128, .f32⟩
  | 88 => ⟨S_, .f32⟩
  | 89 => ⟨S50000x128, .f32⟩
  | 90 => ⟨S800000x1, .i32⟩
  | 91 => ⟨S50000x128, .f32⟩
  | 92 => ⟨S50000x1, .f32⟩
  | 93 => ⟨S50000x128, .f32⟩
  | 94 => ⟨S50000x128, .f32⟩
  | 95 => ⟨S50000x256, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x256, .f32⟩
  | 105 => ⟨S_, .f32⟩
  | 106 => ⟨S50000x256, .f32⟩
  | 107 => ⟨S800000x1, .i32⟩
  | 108 => ⟨S50000x256, .f32⟩
  | 109 => ⟨S50000x1, .f32⟩
  | 110 => ⟨S50000x256, .f32⟩
  | 111 => ⟨S50000x256, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000x256, .f32⟩
  | 121 => ⟨S_, .f32⟩
  | 122 => ⟨S50000x256, .f32⟩
  | 123 => ⟨S800000x1, .i32⟩
  | 124 => ⟨S50000x256, .f32⟩
  | 125 => ⟨S50000x1, .f32⟩
  | 126 => ⟨S50000x256, .f32⟩
  | 127 => ⟨S50000x256, .f32⟩
  | _ => ⟨S50000x64, .f32⟩

abbrev hbmTy0_1 (i : Nat) : BufTy := match i % 128 with
  | 0 => ⟨S50000x512, .f32⟩
  | 1 => ⟨S512x128, .f32⟩
  | 2 => ⟨S50000x128, .f32⟩
  | 3 => ⟨S1x128, .f32⟩
  | 4 => ⟨S50000x128, .f32⟩
  | 5 => ⟨S50000x128, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_c_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_8 : Ref sig .tc := ⟨.hbm, 46, rfl⟩
abbrev main_v32 : Ref sig .tc := ⟨.hbm, 47, rfl⟩
abbrev main_v33 : Ref sig .tc := ⟨.hbm, 48, rfl⟩
abbrev main_c_9 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_11 : Ref sig .tc := ⟨.hbm, 63, rfl⟩
abbrev main_v46 : Ref sig .tc := ⟨.hbm, 64, rfl⟩
abbrev main_v47 : Ref sig .tc := ⟨.hbm, 65, rfl⟩
abbrev main_c_12 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c_14 : Ref sig .tc := ⟨.hbm, 79, rfl⟩
abbrev main_v59 : Ref sig .tc := ⟨.hbm, 80, rfl⟩
abbrev main_v60 : Ref sig .tc := ⟨.hbm, 81, rfl⟩
abbrev main_c_15 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_16 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_c_17 : Ref sig .tc := ⟨.hbm, 96, rfl⟩
abbrev main_v73 : Ref sig .tc := ⟨.hbm, 97, rfl⟩
abbrev main_v74 : Ref sig .tc := ⟨.hbm, 98, rfl⟩
abbrev main_c_18 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_19 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_c_20 : Ref sig .tc := ⟨.hbm, 112, rfl⟩
abbrev main_v86 : Ref sig .tc := ⟨.hbm, 113, rfl⟩
abbrev main_v87 : Ref sig .tc := ⟨.hbm, 114, rfl⟩
abbrev main_c_21 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_22 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  concatenates_S50000x64_S50000x64_S50000x128_d1 : Shape.Concatenates [S50000x64, S50000x64] S50000x128 1
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  concatenates_S50000x256_S50000x256_S50000x512_d1 : Shape.Concatenates [S50000x256, S50000x256] S50000x512 1
  transposes_S128x512_S512x128_1_0 : S128x512.Transposes [1, 0] S512x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x512_S512x128_S50000x128_1_0_0_1_n_n_wf : DotDims.WF S50000x512 S512x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf

class Facts : Prop extends Facts₀ where

variable [Facts]
-- ==== Proof.RefDefs.lean ====
/-
  THE REFERENCE PROGRAM AS A FEW NAMED FUNCTIONS OF ITS ARGUMENTS.

  The edge list [2, 800000] is cut into the vector of first words (where a message is read) and the vector of second
  words (where it lands). A vector of words is used as an index column either as it is (for adding rows in) or with each
  negative word raised by 50000 first (for reading rows). The reciprocal clamped degree of a vector of words adds ones
  into a zero vector through the column, takes the maximum with one, and divides one by it. One aggregation step gathers
  the rows of a table through one column, adds them into a zero table through another, and scales the rows; one hop runs
  the step in both directions, each with its own reciprocal degrees, and lays the two results side by side. The table is two hops from the features; the
  output is a third hop, multiplied by the transposed weights, plus the bias row.
-/
import proofs.«126144_j67336497266901_2_alg».proof.Proof.Gen.ReferenceIdeal
import Idealize.ShloMosaic.Lib.StableHlo

noncomputable section

namespace Cert.ReferenceIdeal.Spec

open Cert.ReferenceIdeal Cert.ReferenceIdeal.Facts₀ Idealize.ShloMosaic

variable {F : FTy → Type} [FloatOps F]

/-- The edges' first words. -/
def srcV (x1 : IVec S2x800000 32) : IVec S800000 32 :=
  shapeCast S800000 (extractStridedSlice S1x800000 ![0, 0] x1 slices_S2x800000_S1x800000_0_0) shapeCasts_S1x800000_S800000

/-- The edges' second words. -/
def dstV (x1 : IVec S2x800000 32) : IVec S800000 32 :=
  shapeCast S800000 (extractStridedSlice S1x800000 ![1, 0] x1 slices_S2x800000_S1x800000_1_0) shapeCasts_S1x800000_S800000

/-- A vector of words as an index column. -/
def col (s : IVec S800000 32) : IVec S800000x1 32 := broadcastInDim S800000x1 ![0] bcast_S800000_S800000x1_0 s

/-- The same with each negative word raised by 50000 first. -/
def wrapCol (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- One over the number of edges landing on each node, the count clamped below at one. -/
def invDeg (d : IVec S800000 32) : FVec F S50000 .f32 :=
  Host.divf (broadcastInDim S50000 ![] bcast_S_S50000 (constant S_ .f32 0x3F800000#32))
    (maximumf (Host.scatterAdd scatter_S50000_S800000x1_S800000_n_0_0_1
        (broadcastInDim S50000 ![] bcast_S_S50000 (constant S_ .f32 0x00000000#32)) (col d)
        (broadcastInDim S800000 ![] bcast_S_S800000 (constant S_ .f32 0x3F800000#32)))
      (broadcastInDim S50000 ![] bcast_S_S50000 (constant S_ .f32 0x3F800000#32)))

/-- One aggregation step of a 64-column table. -/
def step64 (T : FVec F S50000x64 .f32) (g sc : IVec S800000x1 32) (iv : FVec F S50000 .f32) : FVec F S50000x64 .f32 :=
  mulf (Host.scatterAdd scatter_S50000x64_S800000x1_S800000x64_1_0_0_1
      (broadcastInDim S50000x64 ![] bcast_S_S50000x64 (constant S_ .f32 0x00000000#32)) sc
      (Host.gather gather_S50000x64_S800000x1_S800000x64_1_0_n_n_0_1_164 T g))
    (broadcastInDim S50000x64 ![0, 1] bcast_S50000x1_S50000x64_0_1 (broadcastInDim S50000x1 ![0] bcast_S50000_S50000x1_0 iv))

/-- Of a 128-column table. -/
def step128 (T : FVec F S50000x128 .f32) (g sc : IVec S800000x1 32) (iv : FVec F S50000 .f32) : FVec F S50000x128 .f32 :=
  mulf (Host.scatterAdd scatter_S50000x128_S800000x1_S800000x128_1_0_0_1
      (broadcastInDim S50000x128 ![] bcast_S_S50000x128 (constant S_ .f32 0x00000000#32)) sc
      (Host.gather gather_S50000x128_S800000x1_S800000x128_1_0_n_n_0_1_1128 T g))
    (broadcastInDim S50000x128 ![0, 1] bcast_S50000x1_S50000x128_0_1 (broadcastInDim S50000x1 ![0] bcast_S50000_S50000x1_0 iv))

/-- Of a 256-column table. -/
def step256 (T : FVec F S50000x256 .f32) (g sc : IVec S800000x1 32) (iv : FVec F S50000 .f32) : FVec F S50000x256 .f32 :=
  mulf (Host.scatterAdd scatter_S50000x256_S800000x1_S800000x256_1_0_0_1
      (broadcastInDim S50000x256 ![] bcast_S_S50000x256 (constant S_ .f32 0x00000000#32)) sc
      (Host.gather gather_S50000x256_S800000x1_S800000x256_1_0_n_n_0_1_1256 T g))
    (broadcastInDim S50000x256 ![0, 1] bcast_S50000x1_S50000x256_0_1 (broadcastInDim S50000x1 ![0] bcast_S50000_S50000x1_0 iv))

/-- One hop of a 64-column table: both directions side by side. -/
def hop64 (T : FVec F S50000x64 .f32) (s d : IVec S800000 32) (ii io : FVec F S50000 .f32) : FVec F S50000x128 .f32 :=
  concatenate S50000x128 1 [⟨S50000x64, step64 T (wrapCol s) (col d) ii⟩, ⟨S50000x64, step64 T (wrapCol d) (col s) io⟩]
    concatenates_S50000x64_S50000x64_S50000x128_d1

/-- One hop of a 128-column table. -/
def hop128 (T : FVec F S50000x128 .f32) (s d : IVec S800000 32) (ii io : FVec F S50000 .f32) : FVec F S50000x256 .f32 :=
  concatenate S50000x256 1 [⟨S50000x128, step128 T (wrapCol s) (col d) ii⟩, ⟨S50000x128, step128 T (wrapCol d) (col s) io⟩]
    concatenates_S50000x128_S50000x128_S50000x256_d1

/-- One hop of a 256-column table. -/
def hop256 (T : FVec F S50000x256 .f32) (s d : IVec S800000 32) (ii io : FVec F S50000 .f32) : FVec F S50000x512 .f32 :=
  concatenate S50000x512 1 [⟨S50000x256, step256 T (wrapCol s) (col d) ii⟩, ⟨S50000x256, step256 T (wrapCol d) (col s) io⟩]
    concatenates_S50000x256_S50000x256_S50000x512_d1

/-- The table after two hops. -/
def table (x0 : FVec F S50000x64 .f32) (x1 : IVec S2x800000 32) : FVec F S50000x256 .f32 :=
  hop128 (hop64 x0 (srcV x1) (dstV x1) (invDeg (dstV x1)) (invDeg (srcV x1))) (srcV x1) (dstV x1)
    (invDeg (dstV x1)) (invDeg (srcV x1))

/-- The reference's output. -/
def out (x0 : FVec F S50000x64 .f32) (x1 : IVec S2x800000 32) (x2 : FVec F S128x512 .f32) (x3 : FVec F S128 .f32) :
    FVec F S50000x128 .f32 :=
  addf (Host.dotGeneral dot_S50000x512_S512x128_S50000x128_1_0_0_1_n_n none
      (hop256 (table x0 x1) (srcV x1) (dstV x1) (invDeg (dstV x1)) (invDeg (srcV x1))) (transpose S512x128 [1, 0] x2 transposes_S128x512_S512x128_1_0))
    (broadcastInDim S50000x128 ![0, 1] bcast_S1x128_S50000x128_0_1 (broadcastInDim S1x128 ![1] bcast_S128_S1x128_1 x3))

end Cert.ReferenceIdeal.Spec

end
-- ==== Proof.LibFoldAppend.lean ====
/-
  A line of host operations cut in two.

  The buffer contents after a line of host operations are a fold: each operation rewrites its own result buffer from
  the buffers it reads and leaves the rest.  The fold over a concatenation of two lines is the fold over the second,
  started from the fold over the first.  So a long line can be read stretch by stretch: cut it where a called
  function's operations begin and end, state what each stretch leaves in the buffers the later ones read as a small
  function of ANY contents before it, and follow the boundaries forward from the launch contents.  Read that way a
  called function's operations (whose values pass through casts between two spellings of one type) only ever act on
  variables, and every step is a small equation; read in one piece, the same casts sit around large terms.
-/
import Idealize.ShloMosaic.Lib.StableHlo.Run

namespace Cert.FoldAppend

open Idealize.ShloMosaic Idealize.ShloMosaic.StableHlo

variable {τ : Topo} {sig : RefSig} {Val : EltTy → Type}

/-- The fold of a concatenation is the fold of the second part over the fold of the first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.FoldAppend
-- ==== Proof.LibStretch.lean ====
/-
  READING A LONG LINE OF HOST OPERATIONS ONE STRETCH AT A TIME.

  The contents a line of operations leaves are a fold over the line, so a line cut in two is read by reading the second
  part from what the first part leaves. Cutting right after each operation that lays two arrays side by side keeps
  every equation small: within a stretch the earlier array is just the contents of a buffer. Two arrays laid side by
  side are equal as soon as the left pieces are equal and the right pieces are equal; stated once here, so that the
  pieces are compared one at a time and never through the side condition that mentions both.
-/
import Idealize.ShloMosaic.Lib.StableHlo.Run
import proofs.«126144_j67336497266901_2_alg».proof.Proof.LibFoldAppend

namespace Cert.Stretch

open Idealize.ShloMosaic Idealize.ShloMosaic.StableHlo

/-- Two pieces laid side by side along an axis depend only on the pieces. -/
theorem concat2_congr {α : Type} {t s₁ s₂ : Shape} (ax : Fin t.rank) {a a' : s₁.Idx → α} {b b' : s₂.Idx → α}
    (h h' : Shape.Concatenates [s₁, s₂] t ax) (ha : a = a') (hb : b = b') :
    concatenate t ax [⟨s₁, a⟩, ⟨s₂, b⟩] h = concatenate t ax [⟨s₁, a'⟩, ⟨s₂, b'⟩] h' := by
  subst ha hb; rfl

/-- The one-pass reading of a stretch given as a prefix or a suffix of a literal line (the names to unfold are the arguments): the
    prefix or suffix is computed on the literal list first. -/
syntax "stretch_simp " "[" ident,* "]" : tactic
macro_rules
  | `(tactic| stretch_simp [$ls:ident,*]) =>
    `(tactic| simp (disch := decide) only [$[$ls:ident],*, List.take_succ_cons, List.take_zero, List.drop_succ_cons, List.drop_zero,
      after_cons, after_nil,
      nullary_result', unary_result', binary_result', ternary_result', quaternary_result', reshape_result', nary4_result',
      nary_result', unaryIndexed_result', binaryIndexed_result',
      nullary_result_ne', unary_result_ne', binary_result_ne', ternary_result_ne', quaternary_result_ne', reshape_result_ne',
      nary_result_ne', unaryIndexed_result_ne', binaryIndexed_result_ne'])

end Cert.Stretch
-- ==== Proof.RefRun.lean ====
/-
  THE REFERENCE'S RUN.

  The reference's @main is a straight line of 130 host operations, each writing its own result buffer from the buffers
  it reads. Listed in order, they are the program; run from any buffer contents they leave, in the result buffer, the
  reference's output as a function of the four argument buffers (the function the composite definitions name), and
  they leave the argument buffers as they were. The line is read in four stretches, cut after each hop: the edge vectors,
  reciprocal degrees and first hop; the second hop; the third hop; the projection and the bias. So every weakly fair execution terminates with the result buffer at
  that function of the launch contents and the arguments unchanged.
-/
import proofs.«126144_j67336497266901_2_alg».proof.Proof.Gen.ReferenceIdeal
import Idealize.ShloMosaic.Lib.StableHlo.Run
import proofs.«126144_j67336497266901_2_alg».proof.Proof.RefDefs
import proofs.«126144_j67336497266901_2_alg».proof.Proof.LibStretch

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 130 operations, in order. -/
abbrev ops : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x3F800000#32),
    unary main_cst main_v4 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v3 main_v6 (broadcastInDim S800000x1 ![0] bcast_S800000_S800000x1_0 : (⟨S800000, .i32⟩ : BufTy).Contents (Elt F) → (⟨S800000x1, .i32⟩ : BufTy).Contents (Elt F)),
    ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x00000000#32),
    unary main_cst_1 main_v8 (broadcastInDim S50000 ![] bcast_S_S50000 : (⟨S_, .f32⟩ : BufTy).Contents (Elt F) → (⟨S50000, .f32⟩ : BufTy).Contents (Elt F)),
    unary main_v1 main_v9 (broadcastInDim S800000x1 ![0] bcast_S800000_S800000x1_0 : (⟨S800000, .i32⟩ : BufTy).Contents (Elt F) → (⟨S800000x1, .i32⟩ : BufTy).Contents (Elt F)),
    ternary main_v8 main_v9 main_v4 main_v10 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_2 (constant S_ .f32 0x3F800000#32),
    unary main_cst_2 main_v11 (broadcastInDim S50000 ![] bcast_S_S50000 : (⟨S_, .f32⟩ : BufTy).Contents (Elt F) → (⟨S50000, .f32⟩ : BufTy).Contents (Elt F)),
    binary main_v7 main_v11 main_v12 (maximumf : (⟨S50000, .f32⟩ : BufTy).Contents (Elt F) → (⟨S50000, .f32⟩ : BufTy).Contents (Elt F) → (⟨S50000, .f32⟩ : BufTy).Contents (Elt F)),
    nullary main_cst_3 (constant S_ .f32 0x3F800000#32),
    unary main_cst_3 main_v13 (broadcastInDim S50000 ![] bcast_S_S50000 : (⟨S_, .f32⟩ : BufTy).Contents (Elt F) → (⟨S50000, .f32⟩ : BufTy).Contents (Elt F)),
    binary main_v13 main_v12 main_v14 (Host.divf : (⟨S50000, .f32⟩ : BufTy).Contents (Elt F) → (⟨S50000, .f32⟩ : BufTy).Contents (Elt F) → (⟨S50000, .f32⟩ : BufTy).Contents (Elt F)),
    nullary main_cst_4 (constant S_ .f32 0x3F800000#32),
    unary main_cst_4 main_v15 (broadcastInDim S50000 ![] bcast_S_S50000 : (⟨S_, .f32⟩ : BufTy).Contents (Elt F) → (⟨S50000, .f32⟩ : BufTy).Contents (Elt F)),
    binary main_v10 main_v15 main_v16 (maximumf : (⟨S50000, .f32⟩ : BufTy).Contents (Elt F) → (⟨S50000, .f32⟩ : BufTy).Contents (Elt F) → (⟨S50000, .f32⟩ : BufTy).Contents (Elt F)),
    nullary main_cst_5 (constant S_ .f32 0x3F800000#32),
    unary main_cst_5 main_v17 (broadcastInDim S50000 ![] bcast_S_S50000 : (⟨S_, .f32⟩ : BufTy).Contents (Elt F) → (⟨S50000, .f32⟩ : BufTy).Contents (Elt F)),
    binary main_v17 main_v16 main_v18 (Host.divf : (⟨S50000, .f32⟩ : BufTy).Contents (Elt F) → (⟨S50000, .f32⟩ : BufTy).Contents (Elt F) → (⟨S50000, .f32⟩ : BufTy).Contents (Elt F)),
    nullary main_c (constantI S_ 32 0#32),
    unary main_c main_v19 (broadcastInDim S800000 ![] bcast_S_S800000 : (⟨S_, .i32⟩ : BufTy).Contents (Elt F) → (⟨S800000, .i32⟩ : BufTy).Contents (Elt F)),
    binary main_v1 main_v19 main_v20 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v21 (broadcastInDim S800000 ![] bcast_S_S800000 : (⟨S_, .i32⟩ : BufTy).Contents (Elt F) → (⟨S800000, .i32⟩ : BufTy).Contents (Elt F)),
    binary main_v1 main_v21 main_v22 (addi : (⟨S800000, .i32⟩ : BufTy).Contents (Elt F) → (⟨S800000, .i32⟩ : BufTy).Contents (Elt F) → (⟨S800000, .i32⟩ : BufTy).Contents (Elt F)),
    ternary main_v20 main_v22 main_v1 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v23 main_v24 (broadcastInDim S800000x1 ![0] bcast_S800000_S800000x1_0 : (⟨S800000, .i32⟩ : BufTy).Contents (Elt F) → (⟨S800000x1, .i32⟩ : BufTy).Contents (Elt F)),
    binary main_arg0 main_v24 main_v25 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_7 (constant S_ .f32 0x00000000#32),
    unary main_cst_7 main_v26 (broadcastInDim S50000x64 ![] bcast_S_S50000x64 : (⟨S_, .f32⟩ : BufTy).Contents (Elt F) → (⟨S50000x64, .f32⟩ : BufTy).Contents (Elt F)),
    unary main_v3 main_v27 (broadcastInDim S800000x1 ![0] bcast_S800000_S800000x1_0 : (⟨S800000, .i32⟩ : BufTy).Contents (Elt F) → (⟨S800000x1, .i32⟩ : BufTy).Contents (Elt F)),
    ternary main_v26 main_v27 main_v25 main_v28 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v14 main_v29 (broadcastInDim S50000x1 ![0] bcast_S50000_S50000x1_0 : (⟨S50000, .f32⟩ : BufTy).Contents (Elt F) → (⟨S50000x1, .f32⟩ : BufTy).Contents (Elt F)),
    unary main_v29 main_v30 (broadcastInDim S50000x64 ![0, 1] bcast_S50000x1_S50000x64_0_1 : (⟨S50000x1, .f32⟩ : BufTy).Contents (Elt F) → (⟨S50000x64, .f32⟩ : BufTy).Contents (Elt F)),
    binary main_v28 main_v30 main_v31 (mulf : (⟨S50000x64, .f32⟩ : BufTy).Contents (Elt F) → (⟨S50000x64, .f32⟩ : BufTy).Contents (Elt F) → (⟨S50000x64, .f32⟩ : BufTy).Contents (Elt F)),
    nullary main_c_8 (constantI S_ 32 0#32),
    unary main_c_8 main_v32 (broadcastInDim S800000 ![] bcast_S_S800000 : (⟨S_, .i32⟩ : BufTy).Contents (Elt F) → (⟨S800000, .i32⟩ : BufTy).Contents (Elt F)),
    binary main_v3 main_v32 main_v33 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v34 (broadcastInDim S800000 ![] bcast_S_S800000 : (⟨S_, .i32⟩ : BufTy).Contents (Elt F) → (⟨S800000, .i32⟩ : BufTy).Contents (Elt F)),
    binary main_v3 main_v34 main_v35 (addi : (⟨S800000, .i32⟩ : BufTy).Contents (Elt F) → (⟨S800000, .i32⟩ : BufTy).Contents (Elt F) → (⟨S800000, .i32⟩ : BufTy).Contents (Elt F)),
    ternary main_v33 main_v35 main_v3 main_v36 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v36 main_v37 (broadcastInDim S800000x1 ![0] bcast_S800000_S800000x1_0 : (⟨S800000, .i32⟩ : BufTy).Contents (Elt F) → (⟨S800000x1, .i32⟩ : BufTy).Contents (Elt F)),
    binary main_arg0 main_v37 main_v38 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_10 (constant S_ .f32 0x00000000#32),
    unary main_cst_10 main_v39 (broadcastInDim S50000x64 ![] bcast_S_S50000x64 : (⟨S_, .f32⟩ : BufTy).Contents (Elt F) → (⟨S50000x64, .f32⟩ : BufTy).Contents (Elt F)),
    unary main_v1 main_v40 (broadcastInDim S800000x1 ![0] bcast_S800000_S800000x1_0 : (⟨S800000, .i32⟩ : BufTy).Contents (Elt F) → (⟨S800000x1, .i32⟩ : BufTy).Contents (Elt F)),
    ternary main_v39 main_v40 main_v38 main_v41 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v18 main_v42 (broadcastInDim S50000x1 ![0] bcast_S50000_S50000x1_0 : (⟨S50000, .f32⟩ : BufTy).Contents (Elt F) → (⟨S50000x1, .f32⟩ : BufTy).Contents (Elt F)),
    unary main_v42 main_v43 (broadcastInDim S50000x64 ![0, 1] bcast_S50000x1_S50000x64_0_1 : (⟨S50000x1, .f32⟩ : BufTy).Contents (Elt F) → (⟨S50000x64, .f32⟩ : BufTy).Contents (Elt F)),
    binary main_v41 main_v43 main_v44 (mulf : (⟨S50000x64, .f32⟩ : BufTy).Contents (Elt F) → (⟨S50000x64, .f32⟩ : BufTy).Contents (Elt F) → (⟨S50000x64, .f32⟩ : BufTy).Contents (Elt F)),
    binary main_v31 main_v44 main_v45 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    nullary main_c_11 (constantI S_ 32 0#32),
    unary main_c_11 main_v46 (broadcastInDim S800000 ![] bcast_S_S800000 : (⟨S_, .i32⟩ : BufTy).Contents (Elt F) → (⟨S800000, .i32⟩ : BufTy).Contents (Elt F)),
    binary main_v1 main_v46 main_v47 (cmpi .slt : (⟨S800000, .i32⟩ : BufTy).Contents (Elt F) → (⟨S800000, .i32⟩ : BufTy).Contents (Elt F) → (⟨S800000, .i1⟩ : BufTy).Contents (Elt F)),
    nullary main_c_12 (constantI S_ 32 50000#32),
    unary main_c_12 main_v48 (broadcastInDim S800000 ![] bcast_S_S800000 : (⟨S_, .i32⟩ : BufTy).Contents (Elt F) → (⟨S800000, .i32⟩ : BufTy).Contents (Elt F)),
    binary main_v1 main_v48 main_v49 (addi : (⟨S800000, .i32⟩ : BufTy).Contents (Elt F) → (⟨S800000, .i32⟩ : BufTy).Contents (Elt F) → (⟨S800000, .i32⟩ : BufTy).Contents (Elt F)),
    ternary main_v47 main_v49 main_v1 main_v50 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v50 main_v51 (broadcastInDim S800000x1 ![0] bcast_S800000_S800000x1_0 : (⟨S800000, .i32⟩ : BufTy).Contents (Elt F) → (⟨S800000x1, .i32⟩ : BufTy).Contents (Elt F)),
    binary main_v45 main_v51 main_v52 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_13 (constant S_ .f32 0x00000000#32),
    unary main_cst_13 main_v53 (broadcastInDim S50000x128 ![] bcast_S_S50000x128 : (⟨S_, .f32⟩ : BufTy).Contents (Elt F) → (⟨S50000x128, .f32⟩ : BufTy).Contents (Elt F)),
    unary main_v3 main_v54 (broadcastInDim S800000x1 ![0] bcast_S800000_S800000x1_0 : (⟨S800000, .i32⟩ : BufTy).Contents (Elt F) → (⟨S800000x1, .i32⟩ : BufTy).Contents (Elt F)),
    ternary main_v53 main_v54 main_v52 main_v55 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v14 main_v56 (broadcastInDim S50000x1 ![0] bcast_S50000_S50000x1_0 : (⟨S50000, .f32⟩ : BufTy).Contents (Elt F) → (⟨S50000x1, .f32⟩ : BufTy).Contents (Elt F)),
    unary main_v56 main_v57 (broadcastInDim S50000x128 ![0, 1] bcast_S50000x1_S50000x128_0_1 : (⟨S50000x1, .f32⟩ : BufTy).Contents (Elt F) → (⟨S50000x128, .f32⟩ : BufTy).Contents (Elt F)),
    binary main_v55 main_v57 main_v58 (mulf : (⟨S50000x128, .f32⟩ : BufTy).Contents (Elt F) → (⟨S50000x128, .f32⟩ : BufTy).Contents (Elt F) → (⟨S50000x128, .f32⟩ : BufTy).Contents (Elt F)),
    nullary main_c_14 (constantI S_ 32 0#32),
    unary main_c_14 main_v59 (broadcastInDim S800000 ![] bcast_S_S800000 : (⟨S_, .i32⟩ : BufTy).Contents (Elt F) → (⟨S800000, .i32⟩ : BufTy).Contents (Elt F)),
    binary main_v3 main_v59 main_v60 (cmpi .slt : (⟨S800000, .i32⟩ : BufTy).Contents (Elt F) → (⟨S800000, .i32⟩ : BufTy).Contents (Elt F) → (⟨S800000, .i1⟩ : BufTy).Contents (Elt F)),
    nullary main_c_15 (constantI S_ 32 50000#32),
    unary main_c_15 main_v61 (broadcastInDim S800000 ![] bcast_S_S800000 : (⟨S_, .i32⟩ : BufTy).Contents (Elt F) → (⟨S800000, .i32⟩ : BufTy).Contents (Elt F)),
    binary main_v3 main_v61 main_v62 (addi : (⟨S800000, .i32⟩ : BufTy).Contents (Elt F) → (⟨S800000, .i32⟩ : BufTy).Contents (Elt F) → (⟨S800000, .i32⟩ : BufTy).Contents (Elt F)),
    ternary main_v60 main_v62 main_v3 main_v63 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v63 main_v64 (broadcastInDim S800000x1 ![0] bcast_S800000_S800000x1_0 : (⟨S800000, .i32⟩ : BufTy).Contents (Elt F) → (⟨S800000x1, .i32⟩ : BufTy).Contents (Elt F)),
    binary main_v45 main_v64 main_v65 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_16 (constant S_ .f32 0x00000000#32),
    unary main_cst_16 main_v66 (broadcastInDim S50000x128 ![] bcast_S_S50000x128 : (⟨S_, .f32⟩ : BufTy).Contents (Elt F) → (⟨S50000x128, .f32⟩ : BufTy).Contents (Elt F)),
    unary main_v1 main_v67 (broadcastInDim S800000x1 ![0] bcast_S800000_S800000x1_0 : (⟨S800000, .i32⟩ : BufTy).Contents (Elt F) → (⟨S800000x1, .i32⟩ : BufTy).Contents (Elt F)),
    ternary main_v66 main_v67 main_v65 main_v68 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v18 main_v69 (broadcastInDim S50000x1 ![0] bcast_S50000_S50000x1_0 : (⟨S50000, .f32⟩ : BufTy).Contents (Elt F) → (⟨S50000x1, .f32⟩ : BufTy).Contents (Elt F)),
    unary main_v69 main_v70 (broadcastInDim S50000x128 ![0, 1] bcast_S50000x1_S50000x128_0_1 : (⟨S50000x1, .f32⟩ : BufTy).Contents (Elt F) → (⟨S50000x128, .f32⟩ : BufTy).Contents (Elt F)),
    binary main_v68 main_v70 main_v71 (mulf : (⟨S50000x128, .f32⟩ : BufTy).Contents (Elt F) → (⟨S50000x128, .f32⟩ : BufTy).Contents (Elt F) → (⟨S50000x128, .f32⟩ : BufTy).Contents (Elt F)),
    binary main_v58 main_v71 main_v72 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    nullary main_c_17 (constantI S_ 32 0#32),
    unary main_c_17 main_v73 (broadcastInDim S800000 ![] bcast_S_S800000 : (⟨S_, .i32⟩ : BufTy).Contents (Elt F) → (⟨S800000, .i32⟩ : BufTy).Contents (Elt F)),
    binary main_v1 main_v73 main_v74 (cmpi .slt : (⟨S800000, .i32⟩ : BufTy).Contents (Elt F) → (⟨S800000, .i32⟩ : BufTy).Contents (Elt F) → (⟨S800000, .i1⟩ : BufTy).Contents (Elt F)),
    nullary main_c_18 (constantI S_ 32 50000#32),
    unary main_c_18 main_v75 (broadcastInDim S800000 ![] bcast_S_S800000 : (⟨S_, .i32⟩ : BufTy).Contents (Elt F) → (⟨S800000, .i32⟩ : BufTy).Contents (Elt F)),
    binary main_v1 main_v75 main_v76 (addi : (⟨S800000, .i32⟩ : BufTy).Contents (Elt F) → (⟨S800000, .i32⟩ : BufTy).Contents (Elt F) → (⟨S800000, .i32⟩ : BufTy).Contents (Elt F)),
    ternary main_v74 main_v76 main_v1 main_v77 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v77 main_v78 (broadcastInDim S800000x1 ![0] bcast_S800000_S800000x1_0 : (⟨S800000, .i32⟩ : BufTy).Contents (Elt F) → (⟨S800000x1, .i32⟩ : BufTy).Contents (Elt F)),
    binary main_v72 main_v78 main_v79 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_19 (constant S_ .f32 0x00000000#32),
    unary main_cst_19 main_v80 (broadcastInDim S50000x256 ![] bcast_S_S50000x256 : (⟨S_, .f32⟩ : BufTy).Contents (Elt F) → (⟨S50000x256, .f32⟩ : BufTy).Contents (Elt F)),
    unary main_v3 main_v81 (broadcastInDim S800000x1 ![0] bcast_S800000_S800000x1_0 : (⟨S800000, .i32⟩ : BufTy).Contents (Elt F) → (⟨S800000x1, .i32⟩ : BufTy).Contents (Elt F)),
    ternary main_v80 main_v81 main_v79 main_v82 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_v14 main_v83 (broadcastInDim S50000x1 ![0] bcast_S50000_S50000x1_0 : (⟨S50000, .f32⟩ : BufTy).Contents (Elt F) → (⟨S50000x1, .f32⟩ : BufTy).Contents (Elt F)),
    unary main_v83 main_v84 (broadcastInDim S50000x256 ![0, 1] bcast_S50000x1_S50000x256_0_1 : (⟨S50000x1, .f32⟩ : BufTy).Contents (Elt F) → (⟨S50000x256, .f32⟩ : BufTy).Contents (Elt F)),
    binary main_v82 main_v84 main_v85 (mulf : (⟨S50000x256, .f32⟩ : BufTy).Contents (Elt F) → (⟨S50000x256, .f32⟩ : BufTy).Contents (Elt F) → (⟨S50000x256, .f32⟩ : BufTy).Contents (Elt F)),
    nullary main_c_20 (constantI S_ 32 0#32),
    unary main_c_20 main_v86 (broadcastInDim S800000 ![] bcast_S_S800000 : (⟨S_, .i32⟩ : BufTy).Contents (Elt F) → (⟨S800000, .i32⟩ : BufTy).Contents (Elt F)),
    binary main_v3 main_v86 main_v87 (cmpi .slt : (⟨S800000, .i32⟩ : BufTy).Contents (Elt F) → (⟨S800000, .i32⟩ : BufTy).Contents (Elt F) → (⟨S800000, .i1⟩ : BufTy).Contents (Elt F)),
    nullary main_c_21 (constantI S_ 32 50000#32),
    unary main_c_21 main_v88 (broadcastInDim S800000 ![] bcast_S_S800000 : (⟨S_, .i32⟩ : BufTy).Contents (Elt F) → (⟨S800000, .i32⟩ : BufTy).Contents (Elt F)),
    binary main_v3 main_v88 main_v89 (addi : (⟨S800000, .i32⟩ : BufTy).Contents (Elt F) → (⟨S800000, .i32⟩ : BufTy).Contents (Elt F) → (⟨S800000, .i32⟩ : BufTy).Contents (Elt F)),
    ternary main_v87 main_v89 main_v3 main_v90 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v90 main_v91 (broadcastInDim S800000x1 ![0] bcast_S800000_S800000x1_0 : (⟨S800000, .i32⟩ : BufTy).Contents (Elt F) → (⟨S800000x1, .i32⟩ : BufTy).Contents (Elt F)),
    binary main_v72 main_v91 main_v92 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_22 (constant S_ .f32 0x00000000#32),
    unary main_cst_22 main_v93 (broadcastInDim S50000x256 ![] bcast_S_S50000x256 : (⟨S_, .f32⟩ : BufTy).Contents (Elt F) → (⟨S50000x256, .f32⟩ : BufTy).Contents (Elt F)),
    unary main_v1 main_v94 (broadcastInDim S800000x1 ![0] bcast_S800000_S800000x1_0 : (⟨S800000, .i32⟩ : BufTy).Contents (Elt F) → (⟨S800000x1, .i32⟩ : BufTy).Contents (Elt F)),
    ternary main_v93 main_v94 main_v92 main_v95 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_v18 main_v96 (broadcastInDim S50000x1 ![0] bcast_S50000_S50000x1_0 : (⟨S50000, .f32⟩ : BufTy).Contents (Elt F) → (⟨S50000x1, .f32⟩ : BufTy).Contents (Elt F)),
    unary main_v96 main_v97 (broadcastInDim S50000x256 ![0, 1] bcast_S50000x1_S50000x256_0_1 : (⟨S50000x1, .f32⟩ : BufTy).Contents (Elt F) → (⟨S50000x256, .f32⟩ : BufTy).Contents (Elt F)),
    binary main_v95 main_v97 main_v98 (mulf : (⟨S50000x256, .f32⟩ : BufTy).Contents (Elt F) → (⟨S50000x256, .f32⟩ : BufTy).Contents (Elt F) → (⟨S50000x256, .f32⟩ : BufTy).Contents (Elt F)),
    binary main_v85 main_v98 main_v99 ((fun a b => concatenate S50000x512 1 [⟨S50000x256, a⟩, ⟨S50000x256, b⟩] concatenates_S50000x256_S50000x256_S50000x512_d1) : (⟨S50000x256, .f32⟩ : BufTy).Contents (Elt F) → (⟨S50000x256, .f32⟩ : BufTy).Contents (Elt F) → (⟨S50000x512, .f32⟩ : BufTy).Contents (Elt F)),
    unary main_arg2 main_v100 ((transpose S512x128 [1, 0] · transposes_S128x512_S512x128_1_0) : (⟨S128x512, .f32⟩ : BufTy).Contents (Elt F) → (⟨S512x128, .f32⟩ : BufTy).Contents (Elt F)),
    binary main_v99 main_v100 main_v101 ((fun l r => Host.dotGeneral dot_S50000x512_S512x128_S50000x128_1_0_0_1_n_n none l r) : (⟨S50000x512, .f32⟩ : BufTy).Contents (Elt F) → (⟨S512x128, .f32⟩ : BufTy).Contents (Elt F) → (⟨S50000x128, .f32⟩ : BufTy).Contents (Elt F)),
    unary main_arg3 main_v102 (broadcastInDim S1x128 ![1] bcast_S128_S1x128_1 : (⟨S128, .f32⟩ : BufTy).Contents (Elt F) → (⟨S1x128, .f32⟩ : BufTy).Contents (Elt F)),
    unary main_v102 main_v103 (broadcastInDim S50000x128 ![0, 1] bcast_S1x128_S50000x128_0_1 : (⟨S1x128, .f32⟩ : BufTy).Contents (Elt F) → (⟨S50000x128, .f32⟩ : BufTy).Contents (Elt F)),
    binary main_v101 main_v103 main_v104 (addf : (⟨S50000x128, .f32⟩ : BufTy).Contents (Elt F) → (⟨S50000x128, .f32⟩ : BufTy).Contents (Elt F) → (⟨S50000x128, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., binary_bufs_sub .., unary_bufs_sub .., unary_bufs_sub .., binary_bufs_sub ..⟩

/-! ## The four stretches -/

/-- Up to the first hop's result. -/
abbrev opsA : List (HloOp τ sig (Elt F)) := (ops (F := F)).take 59
/-- The second hop. -/
abbrev opsB : List (HloOp τ sig (Elt F)) := ((ops (F := F)).drop 59).take 33
/-- The third hop. -/
abbrev opsC : List (HloOp τ sig (Elt F)) := ((ops (F := F)).drop 92).take 33
/-- The projection and the bias. -/
abbrev opsD : List (HloOp τ sig (Elt F)) := (ops (F := F)).drop 125

set_option maxRecDepth 16384 in
set_option maxHeartbeats 4000000 in
/-- The line is its four stretches in order. -/
theorem ops_split : (ops : List (HloOp τ sig (Elt F))) = opsA ++ (opsB ++ (opsC ++ opsD)) := by
  simp only [opsA, opsB, opsC, opsD, ops, List.take_succ_cons, List.take_zero, List.drop_succ_cons, List.drop_zero,
    List.cons_append, List.nil_append]

section Stretches
set_option maxRecDepth 16384

/-! ### First stretch: from the launch contents -/

theorem A_v1 (Y : Valuation τ sig (Elt F)) :
    StableHlo.after opsA Y (Proc.devRef .tc main_v1) = Cert.ReferenceIdeal.Spec.srcV (Y (Proc.devRef .tc main_arg1)) := by
  stretch_simp [ops, opsA, opsB, opsC, opsD]
  try rfl
theorem A_v3 (Y : Valuation τ sig (Elt F)) :
    StableHlo.after opsA Y (Proc.devRef .tc main_v3) = Cert.ReferenceIdeal.Spec.dstV (Y (Proc.devRef .tc main_arg1)) := by
  stretch_simp [ops, opsA, opsB, opsC, opsD]
  try rfl
set_option maxHeartbeats 2000000 in
theorem A_v14 (Y : Valuation τ sig (Elt F)) :
    StableHlo.after opsA Y (Proc.devRef .tc main_v14) = Cert.ReferenceIdeal.Spec.invDeg (F := F) (Cert.ReferenceIdeal.Spec.dstV (Y (Proc.devRef .tc main_arg1))) := by
  stretch_simp [ops, opsA, opsB, opsC, opsD]
  try rfl
set_option maxHeartbeats 2000000 in
theorem A_v18 (Y : Valuation τ sig (Elt F)) :
    StableHlo.after opsA Y (Proc.devRef .tc main_v18) = Cert.ReferenceIdeal.Spec.invDeg (F := F) (Cert.ReferenceIdeal.Spec.srcV (Y (Proc.devRef .tc main_arg1))) := by
  stretch_simp [ops, opsA, opsB, opsC, opsD]
  try rfl
set_option maxHeartbeats 4000000 in
theorem A_v45 (Y : Valuation τ sig (Elt F)) :
    StableHlo.after opsA Y (Proc.devRef .tc main_v45)
      = Cert.ReferenceIdeal.Spec.hop64 (F := F) (Y (Proc.devRef .tc main_arg0)) (Cert.ReferenceIdeal.Spec.srcV (Y (Proc.devRef .tc main_arg1))) (Cert.ReferenceIdeal.Spec.dstV (Y (Proc.devRef .tc main_arg1)))
          (Cert.ReferenceIdeal.Spec.invDeg (Cert.ReferenceIdeal.Spec.dstV (Y (Proc.devRef .tc main_arg1)))) (Cert.ReferenceIdeal.Spec.invDeg (Cert.ReferenceIdeal.Spec.srcV (Y (Proc.devRef .tc main_arg1)))) := by
  stretch_simp [ops, opsA, opsB, opsC, opsD]
  unfold Cert.ReferenceIdeal.Spec.hop64
  exact Cert.Stretch.concat2_congr 1 _ _ rfl rfl
theorem A_keep_arg2 (Y : Valuation τ sig (Elt F)) :
    StableHlo.after opsA Y (Proc.devRef .tc main_arg2) = Y (Proc.devRef .tc main_arg2) := by
  stretch_simp [ops, opsA, opsB, opsC, opsD]
theorem A_keep_arg3 (Y : Valuation τ sig (Elt F)) :
    StableHlo.after opsA Y (Proc.devRef .tc main_arg3) = Y (Proc.devRef .tc main_arg3) := by
  stretch_simp [ops, opsA, opsB, opsC, opsD]

/-! ### Second stretch -/

set_option maxHeartbeats 2000000 in
theorem B_v72 (Y : Valuation τ sig (Elt F)) :
    StableHlo.after opsB Y (Proc.devRef .tc main_v72)
      = Cert.ReferenceIdeal.Spec.hop128 (F := F) (Y (Proc.devRef .tc main_v45)) (Y (Proc.devRef .tc main_v1)) (Y (Proc.devRef .tc main_v3))
          (Y (Proc.devRef .tc main_v14)) (Y (Proc.devRef .tc main_v18)) := by
  stretch_simp [ops, opsA, opsB, opsC, opsD]
  unfold Cert.ReferenceIdeal.Spec.hop128
  exact Cert.Stretch.concat2_congr 1 _ _ rfl rfl
theorem B_keep_v1 (Y : Valuation τ sig (Elt F)) :
    StableHlo.after opsB Y (Proc.devRef .tc main_v1) = Y (Proc.devRef .tc main_v1) := by
  stretch_simp [ops, opsA, opsB, opsC, opsD]
theorem B_keep_v3 (Y : Valuation τ sig (Elt F)) :
    StableHlo.after opsB Y (Proc.devRef .tc main_v3) = Y (Proc.devRef .tc main_v3) := by
  stretch_simp [ops, opsA, opsB, opsC, opsD]
theorem B_keep_v14 (Y : Valuation τ sig (Elt F)) :
    StableHlo.after opsB Y (Proc.devRef .tc main_v14) = Y (Proc.devRef .tc main_v14) := by
  stretch_simp [ops, opsA, opsB, opsC, opsD]
theorem B_keep_v18 (Y : Valuation τ sig (Elt F)) :
    StableHlo.after opsB Y (Proc.devRef .tc main_v18) = Y (Proc.devRef .tc main_v18) := by
  stretch_simp [ops, opsA, opsB, opsC, opsD]
theorem B_keep_arg2 (Y : Valuation τ sig (Elt F)) :
    StableHlo.after opsB Y (Proc.devRef .tc main_arg2) = Y (Proc.devRef .tc main_arg2) := by
  stretch_simp [ops, opsA, opsB, opsC, opsD]
theorem B_keep_arg3 (Y : Valuation τ sig (Elt F)) :
    StableHlo.after opsB Y (Proc.devRef .tc main_arg3) = Y (Proc.devRef .tc main_arg3) := by
  stretch_simp [ops, opsA, opsB, opsC, opsD]

/-! ### Third stretch -/

set_option maxHeartbeats 2000000 in
theorem C_v99 (Y : Valuation τ sig (Elt F)) :
    StableHlo.after opsC Y (Proc.devRef .tc main_v99)
      = Cert.ReferenceIdeal.Spec.hop256 (F := F) (Y (Proc.devRef .tc main_v72)) (Y (Proc.devRef .tc main_v1)) (Y (Proc.devRef .tc main_v3))
          (Y (Proc.devRef .tc main_v14)) (Y (Proc.devRef .tc main_v18)) := by
  stretch_simp [ops, opsA, opsB, opsC, opsD]
  unfold Cert.ReferenceIdeal.Spec.hop256
  exact Cert.Stretch.concat2_congr 1 _ _ rfl rfl
theorem C_keep_arg2 (Y : Valuation τ sig (Elt F)) :
    StableHlo.after opsC Y (Proc.devRef .tc main_arg2) = Y (Proc.devRef .tc main_arg2) := by
  stretch_simp [ops, opsA, opsB, opsC, opsD]
theorem C_keep_arg3 (Y : Valuation τ sig (Elt F)) :
    StableHlo.after opsC Y (Proc.devRef .tc main_arg3) = Y (Proc.devRef .tc main_arg3) := by
  stretch_simp [ops, opsA, opsB, opsC, opsD]

/-! ### Fourth stretch -/

theorem D_v104 (Y : Valuation τ sig (Elt F)) :
    StableHlo.after opsD Y (Proc.devRef .tc main_v104)
      = addf (Host.dotGeneral dot_S50000x512_S512x128_S50000x128_1_0_0_1_n_n none (Y (Proc.devRef .tc main_v99))
            (transpose S512x128 [1, 0] (Y (Proc.devRef .tc main_arg2)) transposes_S128x512_S512x128_1_0))
          (broadcastInDim S50000x128 ![0, 1] bcast_S1x128_S50000x128_0_1
            (broadcastInDim S1x128 ![1] bcast_S128_S1x128_1 (Y (Proc.devRef .tc main_arg3)))) := by
  stretch_simp [ops, opsA, opsB, opsC, opsD]
  try rfl

end Stretches

/-! ## The whole line -/

set_option maxRecDepth 16384 in
/-- The operations run from any contents leave the output function of the argument buffers in the result buffer. -/
theorem after_out (X : Valuation τ sig (Elt F)) :
    StableHlo.after ops X (Proc.devRef .tc main_v104)
      = Cert.ReferenceIdeal.Spec.out (F := F) (X (Proc.devRef .tc main_arg0)) (X (Proc.devRef .tc main_arg1))
          (X (Proc.devRef .tc main_arg2)) (X (Proc.devRef .tc main_arg3)) := by
  rw [ops_split]
  simp only [Cert.FoldAppend.after_append]
  rw [D_v104, C_v99, C_keep_arg2, C_keep_arg3, B_v72, B_keep_v1, B_keep_v3, B_keep_v14, B_keep_v18, B_keep_arg2,
    B_keep_arg3, A_v45, A_v1, A_v3, A_v14, A_v18, A_keep_arg2, A_keep_arg3]
  rfl

set_option maxRecDepth 16384 in
set_option maxHeartbeats 16000000 in
/-- No operation writes an argument buffer. -/
theorem after_args (X : Valuation τ sig (Elt F)) :
    StableHlo.after ops X (Proc.devRef .tc main_arg0) = X (Proc.devRef .tc main_arg0)
    ∧ StableHlo.after ops X (Proc.devRef .tc main_arg1) = X (Proc.devRef .tc main_arg1)
    ∧ StableHlo.after ops X (Proc.devRef .tc main_arg2) = X (Proc.devRef .tc main_arg2)
    ∧ StableHlo.after ops X (Proc.devRef .tc main_arg3) = X (Proc.devRef .tc main_arg3) := by
  refine ⟨?_, ?_, ?_, ?_⟩ <;> after_results_simp

/-- On every device, from any memory with zero counters: every weakly fair execution of @main terminates with the result
    buffer at the output function of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v104)
        = Cert.ReferenceIdeal.Spec.out (F := F) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v104).trans (after_out _),
      (h c main_arg0).trans (after_args _).1,
      (h c main_arg1).trans (after_args _).2.1,
      (h c main_arg2).trans (after_args _).2.2.1,
      (h c main_arg3).trans (after_args _).2.2.2⟩)
    (run_seq scopedRefs_eq scopedSems_eq defs main (fun _ => ops) main_eq (fun _ => ops_sub) m ρ)

end Cert.ReferenceIdeal.HandRun

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.KernelGemm.lean ====
/-
  THE ARRAY THE KERNEL REGION LEAVES.

  The region multiplies a [50000, 256] array H by a [256, 256] matrix Wc, 5000 rows at a time over ten grid points:
  point t stages rows 5000 t .. 5000 t + 4999 of H and the whole of Wc, forms their product on the matrix unit from
  operands narrowed to bf16 (the identity on the extended reals) into a zero accumulator, and writes the [5000, 256]
  result back as the same rows of the output array. The ten row blocks tile the output, so after the run the output
  array is, at (r, q), the sum over k of H(r, k) * Wc(k, q).
-/
import proofs.«126144_j67336497266901_2_alg».proof.Proof.Gen.KernelIdeal.Frame
import Idealize.ShloMosaic.Lib.Pipeline.Value
import Idealize.ShloMosaic.Lib.ValueIdx
import Idealize.ShloMosaic.PureOps.Ideal.Laws
import proofs.«126144_j67336497266901_2_alg».proof.Proof.LibMatmulPlain

set_option maxRecDepth 16384

noncomputable section

open scoped BigOperators

namespace Cert.KernelIdeal.Region

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-- The zero offsets of a whole block, as the body spells them. -/
theorem zero2 : (![0, 0] : Fin 2 → Nat) = fun _ => 0 := funext fun a => by fin_cases a <;> rfl

/-- The product of a [50000, 256] array and a [256, 256] matrix, index by index. -/
def prod (H : S50000x256.Idx → EReal) (Wc : S256x256.Idx → EReal) : S50000x256.Idx → EReal :=
  fun i => ∑ k : Fin 256, H (ix2 (i 0 : Fin 50000) k) * Wc (ix2 k (i 1 : Fin 256))

/-- One tile's product at (r, q): the sum over k of the row block's (r, k) times the matrix's (k, q). -/
theorem tile_apply (x0 : Vec Ideal S5000x256 .f32) (x1 : Vec Ideal S256x256 .f32) (r : Fin 5000) (q : Fin 256) :
    k0_pay1 (F := Ideal) x0 x1 (ix2 r q) = ∑ k : Fin 256, x0 (ix2 r k) * x1 (ix2 k q) := by
  unfold k0_pay1
  refine (Cert.LibMatmulPlain.matmul_zero_apply dot_S5000x256_S256x256_S5000x256_1_0_0_1_n_n rfl rfl rfl rfl rfl rfl
    none _ _ r q).trans ?_
  simp only [truncf_apply, shapeCast_self]

/-- A tile's product entry is the whole product's entry wherever the tile's row of the left block and column of the right
    block are the array's row and the matrix's column at that index. -/
theorem block_prod (H : S50000x256.Idx → EReal) (Wc : S256x256.Idx → EReal) (x0 : Vec Ideal S5000x256 .f32)
    (x1 : Vec Ideal S256x256 .f32) (r : Fin 5000) (q : Fin 256) (i : S50000x256.Idx)
    (h0 : ∀ k : Fin 256, x0 (ix2 r k) = H (ix2 (i 0 : Fin 50000) k))
    (h1 : ∀ k : Fin 256, x1 (ix2 k q) = Wc (ix2 k (i 1 : Fin 256))) :
    k0_pay1 (F := Ideal) x0 x1 (ix2 r q) = prod H Wc i := by
  rw [tile_apply]
  unfold prod
  exact Finset.sum_congr rfl fun k _ => by rw [h0, h1]

/-- The block index of each window at a point: the array's and the output's row block is the point's number, their
    column block and the matrix's blocks are 0; there are ten points. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

set_option maxHeartbeats 2000000 in
/-- At any point, over ANY contents of the two input arrays: the tile product of the point's two blocks, cut to the
    output block, is the output block of the whole product. -/
theorem cut_prod (t : Fin cfg0.N) (A0 : S50000x256.Idx → EReal) (A1 : S256x256.Idx → EReal) :
    (cfg0.win 2).cut (grid0.coords t)
        (out0_2 (F := Ideal) (((cfg0.win 0).blk t).view.read (Elt Ideal) A0) (((cfg0.win 1).blk t).view.read (Elt Ideal) A1))
      = ((cfg0.win 2).blk t).view.read (Elt Ideal) (prod A0 A1) := by
  unfold out0_2
  rw [View.canon_unit_zero zero2]
  simp only [View.ld_unit_zero (S := S5000x256) zero2, View.ld_unit_zero (S := S256x256) zero2]
  obtain ⟨e0, e1, e2, e3, e4, e5, e6⟩ := index_facts t
  funext j
  obtain ⟨r, q, rfl⟩ : ∃ (r : Fin 5000) (q : Fin 256), j = ix2 r q := ⟨j 0, j 1, eq_ix2 j⟩
  refine block_prod A0 A1 _ _ r q (((cfg0.win 2).blk t).view.emb (ix2 r q)) (fun k => ?_) (fun k => ?_)
  · rw [View.read_apply]
    refine congrArg A0 (funext fun a => Fin.ext ?_)
    match a with
    | ⟨0, _⟩ =>
      show win0_0.index t (0 : Fin 2) * 5000 + 1 * r.val = win0_2.index t (0 : Fin 2) * 5000 + 1 * r.val
      omega
    | ⟨1, _⟩ =>
      show win0_0.index t (1 : Fin 2) * 256 + 1 * k.val = k.val
      omega
  · rw [View.read_apply]
    refine congrArg A1 (funext fun a => Fin.ext ?_)
    match a with
    | ⟨0, _⟩ =>
      show win0_1.index t (0 : Fin 2) * 256 + 1 * k.val = k.val
      omega
    | ⟨1, _⟩ =>
      show win0_1.index t (1 : Fin 2) * 256 + 1 * q.val = win0_2.index t (1 : Fin 2) * 256 + 1 * q.val
      omega

/-- What point t writes back is block t of the product of the arrays the region finds. -/
theorem flushed_eq (c : Dev nD) (t : Fin cfg0.N) :
    (dats m 0 c).flushed 2 t = ((cfg0.win 2).blk t).view.read (Elt Ideal)
      (prod (V m c main_call0_v72) (V m c main_call0_v77)) := by
  show (cfg0.win 2).cut (grid0.coords t) ((dats m 0 c).after 2 t) = _
  rw [after0_2]
  unfold iblk
  exact cut_prod t (V m c main_call0_v72) (V m c main_call0_v77)

/-- An index of the output array is in point t's block iff each coordinate is in the block's range on its axis. -/
theorem mem_blk (t : Fin cfg0.N) (i : S50000x256.Idx) :
    i ∈ ((cfg0.win 2).blk t).view.set ↔ ∀ a : Fin 2, win0_2.index t a * S5000x256.size a ≤ (i a).val
      ∧ (i a).val < win0_2.index t a * S5000x256.size a + S5000x256.size a := by
  show i ∈ ((View.whole main_call0_v78).slice (win0_2.rect t)).set ↔ _
  rw [View.set_slice_whole, Rect.mem_set_unit]
  exact Iff.rfl

/-- Every row of the output lies in the block of the point numbered by the row divided by 5000. -/
theorem covered (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 10 := N_0
  let t : Fin cfg0.N := ⟨(i 0).val / 5000, by rw [hN]; omega⟩
  obtain ⟨e0, e1, e2, e3, e4, e5, e6⟩ := index_facts t
  have ht : t.val = (i 0).val / 5000 := rfl
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 256 ≤ (i 1).val ∧ (i 1).val < win0_2.index t (1 : Fin 2) * 256 + 256
    omega

/-- The output array after the run: the product of the arrays the region finds. -/
theorem final (c : Dev nD) :
    (dats m 0 c).arrAt 2 cfg0.N = prod (V m c main_call0_v72) (V m c main_call0_v77) :=
  (dats m 0 c).arrAt_eq_of_cover 2 (prod (V m c main_call0_v72) (V m c main_call0_v77))
    (fun t _ => flushed_eq m c t) covered

end Cert.KernelIdeal.Region

end
-- ==== Proof.LibAggRows.lean ====
/-
  ROWS OF A TABLE READ AND ACCUMULATED THROUGH AN INDEX COLUMN, AT AN ENTRY.

  Two host operations over a table of `N` rows and `C` columns and a column of `E` integer words (held as an
  `[E, 1]` array):
    • the ROW GATHER `table[idx]`: result row `e` is the table's row at the `e`-th word, read as a signed integer
      and clamped into `[0, N − 1]` (`srcRow`, `rowGather_apply`);
    • the ROW SCATTER-ADD `zeros.at[idx].add(rows)` over the extended reals: entry `(i, c)` of the result is the
      operand's entry plus the sum of the entries `(e, c)` of the update rows whose word, read as a signed integer
      and NOT clamped, is `i`; a word outside `[0, N)` drops its row (`dstRow?`, `rowScatterAdd_apply`).
  Every statement is over the extents `N`, `E`, `C` and the word width `w` as variables.
-/
import Idealize.ShloMosaic.PureOps.Ideal
import Idealize.ShloMosaic.Lib.ValueIdx

noncomputable section

open scoped BigOperators

namespace Cert.LibAggRows

open Idealize.ShloMosaic Idealize.ShloMosaic.ValueIdx

/-! ## The row gather

Operand `[N, C]`, start indices `[E, 1]`, result `[E, C]`; the operand's axis 0 is collapsed and is the one the start
index names, its axis 1 is kept whole (slice sizes `[1, C]`) and is the result's offset axis 1; the index vector lies
along the start indices' axis 1. -/

section Gather
variable {α : Type}

/-- The row gather's dimension numbers for an operand `[N, C]`, start indices `[E, 1]` and result `[E, C]`; their
    conditions `wf` are decided on literal extents. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The table row that result row `e` reads: the `e`-th start index, read as a signed integer and clamped into
    `[0, N − 1]` (a negative word reads row `0`, a word at or above `N` reads row `N − 1`). It depends on neither
    the number of columns nor the table's contents. -/
def srcRow {E w : Nat} (N : Nat) (hN : 0 < N) (idx : IVec ⟨2, ![E, 1]⟩ w) (e : Fin E) : Fin N :=
  ⟨min (idx (ix2 e (0 : Fin 1))).toInt.toNat (N - 1), by omega⟩

/-- On the operand's axis 0 (collapsed, named by the start index map) the operand index of result entry `(e, c)` is
    the clamped start index: no batching coordinate, no offset. -/
theorem rowGather_operandIdx0 {N E C w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowGatherDims N E C wf).operandIdx (ix2 e c) idx 0 = srcRow N hN idx e := by
  refine Fin.ext ?_
  show (rowGatherDims N E C wf).start (ix2 e c) idx 0 + (rowGatherDims N E C wf).batchCoord (ix2 e c) 0
    + (rowGatherDims N E C wf).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N E C wf).startIndexMap from List.mem_singleton.mpr rfl)]
  have hsi : (rowGatherDims N E C wf).siIdx (ix2 e c) ⟨List.idxOf (0 : Fin 2) (rowGatherDims N E C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the operand's axis 1 (kept whole, not named by the start index map) the operand index of result entry
    `(e, c)` is the result's column `c`: start `0`, no batching coordinate, offset `c`. -/
theorem rowGather_operandIdx1 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowGatherDims N E C wf).operandIdx (ix2 e c) idx 1 = c := by
  refine Fin.ext ?_
  show (rowGatherDims N E C wf).start (ix2 e c) idx 1 + (rowGatherDims N E C wf).batchCoord (ix2 e c) 1
    + (rowGatherDims N E C wf).offCoord (ix2 e c) 1 = _
  have hk : (1 : Fin 2) ∈ (rowGatherDims N E C wf).sKept :=
    (GatherDims.mem_sKept _ _).mpr ⟨(by decide : (1 : Fin 2) ∉ [0]), List.not_mem_nil⟩
  rw [GatherDims.batchCoord_eq_zero _ _ _ List.not_mem_nil]
  unfold GatherDims.start GatherDims.offCoord
  rw [dif_neg (show (1 : Fin 2) ∉ (rowGatherDims N E C wf).startIndexMap from (by decide : (1 : Fin 2) ∉ [0])), dif_pos hk]
  simp only [Nat.add_zero, Nat.zero_add]
  rfl

/-- THE ROW GATHER READ AT `(e, c)`: the table's entry in column `c` of the row `srcRow N hN idx e`, the `e`-th start
    index read signed and clamped into `[0, N − 1]`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (srcRow N hN idx e) c) := by
  unfold Host.gather
  rw [eq_ix2 ((rowGatherDims N E C wf).operandIdx (ix2 e c) idx), rowGather_operandIdx0 hN wf idx e c,
    rowGather_operandIdx1 wf idx e c]
  rfl

end Gather

/-! ## The row scatter-add, over the extended reals

Operand `[N, C]`, scatter indices `[E, 1]`, updates `[E, C]`; the operand's axis 0 is inserted and is the one the
scatter index names, the updates' axis 1 is the window axis and goes to the operand's axis 1; the index vector lies along
the scatter indices' axis 1. -/

section ScatterAdd

/-- Two rank-2 indices with equal coordinates are equal. -/
theorem idx2_ext {n0 n1 : Nat} (f g : (⟨2, ![n0, n1]⟩ : Shape).Idx) (h0 : f 0 = g 0) (h1 : f 1 = g 1) : f = g := by
  rw [eq_ix2 f, eq_ix2 g, h0, h1]

/-- The row scatter's dimension numbers for an operand `[N, C]`, scatter indices `[E, 1]` and updates `[E, C]`; their
    conditions `wf` are decided on literal extents. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The operand row that update row `e` is added to: the `e`-th scatter index read as a signed integer, NOT clamped,
    when it lies in `[0, N)`; `none` when it does not (the row is dropped). It depends on neither the number of
    columns nor the arrays' contents. -/
def dstRow? {E w : Nat} (N : Nat) (idx : IVec ⟨2, ![E, 1]⟩ w) (e : Fin E) : Option (Fin N) :=
  if h : 0 ≤ (idx (ix2 e (0 : Fin 1))).toInt ∧ (idx (ix2 e (0 : Fin 1))).toInt < (N : Int) then
    some ⟨(idx (ix2 e (0 : Fin 1))).toInt.toNat, by omega⟩
  else none

/-- On the operand's axis 0 the window of update entry `(e, c)` starts at the `e`-th scatter index, read signed. -/
theorem rowScatter_start0 {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e c) ⟨List.idxOf (0 : Fin 2) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the operand's axis 1, which the scatter index does not name, the window starts at `0`. -/
theorem rowScatter_start1 {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 1 = 0 := by
  unfold ScatterDims.start
  rw [dif_neg (show (1 : Fin 2) ∉ (rowScatterDims N E C wf).scatterDimsToOperandDims from (by decide : (1 : Fin 2) ∉ [0]))]

/-- On the operand's axis 0, an inserted axis, the window coordinate is `0`. -/
theorem rowScatter_window0 {N E C : Nat} (wf : ScatterDims.WF ⟨2, ![N, C]⟩ ⟨2, ![E, 1]⟩ ⟨2, ![E, C]⟩ [1] [0] [0] 1)
    (e : Fin E) (c : Fin C) : (rowScatterDims N E C wf).window (ix2 e c) 0 = 0 := by
  unfold ScatterDims.window
  rw [dif_neg]
  show (0 : Fin 2) ∉ Shape.kept ⟨2, ![N, C]⟩ [0]
  simp [Shape.kept]

/-- On the operand's axis 1 the window coordinate of update entry `(e, c)` is its column `c`. -/
theorem rowScatter_window1 {N E C : Nat} (wf : ScatterDims.WF ⟨2, ![N, C]⟩ ⟨2, ![E, 1]⟩ ⟨2, ![E, C]⟩ [1] [0] [0] 1)
    (e : Fin E) (c : Fin C) : (rowScatterDims N E C wf).window (ix2 e c) 1 = c.val := by
  unfold ScatterDims.window
  have hk : (1 : Fin 2) ∈ (rowScatterDims N E C wf).sKept := by
    show (1 : Fin 2) ∈ Shape.kept ⟨2, ![N, C]⟩ [0]
    simp [Shape.kept]
  rw [dif_pos hk]
  rfl

/-- THE LANDING ENTRY of update entry `(e, c)`: column `c` of the row `dstRow? N idx e`, when there is one. -/
theorem rowScatter_resultIdx? {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).resultIdx? (ix2 e c) idx = (dstRow? N idx e).map (fun r => ix2 r c) := by
  have hs0 := rowScatter_start0 wf idx e c
  have hs1 := rowScatter_start1 wf idx e c
  have hw0 := rowScatter_window0 wf e c
  have hw1 := rowScatter_window1 wf e c
  have hc : c.val < C := c.isLt
  unfold ScatterDims.resultIdx? dstRow?
  by_cases h : 0 ≤ (idx (ix2 e (0 : Fin 1))).toInt ∧ (idx (ix2 e (0 : Fin 1))).toInt < (N : Int)
  · have hall : ∀ a, 0 ≤ (rowScatterDims N E C wf).start (ix2 e c) idx a + (rowScatterDims N E C wf).window (ix2 e c) a ∧
        (rowScatterDims N E C wf).start (ix2 e c) idx a + (rowScatterDims N E C wf).window (ix2 e c) a
          < (⟨2, ![N, C]⟩ : Shape).size a := by
      rw [Fin.forall_fin_two, hs0, hs1, hw0, hw1]
      refine ⟨⟨by simpa using h.1, by simpa using h.2⟩, ⟨by simp, by simpa using hc⟩⟩
    rw [dif_pos hall, dif_pos h, Option.map_some]
    refine congrArg some (idx2_ext _ _ (Fin.ext ?_) (Fin.ext ?_))
    · show ((rowScatterDims N E C wf).start (ix2 e c) idx 0 + (rowScatterDims N E C wf).window (ix2 e c) 0).toNat
        = (idx (ix2 e (0 : Fin 1))).toInt.toNat
      rw [hs0, hw0]; simp
    · show ((rowScatterDims N E C wf).start (ix2 e c) idx 1 + (rowScatterDims N E C wf).window (ix2 e c) 1).toNat
        = c.val
      rw [hs1, hw1]; simp
  · rw [dif_neg h, dif_neg]
    · rfl
    · intro hall
      have h0 := hall 0
      rw [hs0, hw0] at h0
      exact h (by simpa using h0)

/-- An update entry `j` lands on entry `(i, c)` exactly when its row's scatter index is `i` and its column is `c`. -/
theorem rowScatter_resultIdx?_eq_some {N E C w : Nat} (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : Fin N) (c : Fin C) :
    (rowScatterDims N E C wf).resultIdx? j idx = some (ix2 i c) ↔ dstRow? N idx (j 0) = some i ∧ j 1 = c := by
  obtain ⟨e, c', rfl⟩ : ∃ e c', j = ix2 e c' := ⟨j 0, j 1, eq_ix2 j⟩
  show _ ↔ dstRow? N idx e = some i ∧ c' = c
  rw [rowScatter_resultIdx? wf idx e c', Option.map_eq_some_iff]
  constructor
  · rintro ⟨r, hr, hrc⟩
    have h0 : r = i := congrFun hrc 0
    have h1 : c' = c := congrFun hrc 1
    exact ⟨by rw [hr, h0], h1⟩
  · rintro ⟨hr, rfl⟩
    exact ⟨i, hr, rfl⟩

/-- THE ROW SCATTER-ADD READ AT `(i, c)`: the operand's entry plus the sum, over the update rows `e` whose scatter
    index (read signed, not clamped) is `i`, of their entries in column `c`. -/
theorem rowScatterAdd_apply {N E C w : Nat} (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32)
    (i : Fin N) (c : Fin C) :
    Host.scatterAdd (F := Ideal) (rowScatterDims N E C wf) x idx upd (ix2 i c)
      = x (ix2 i c) + ∑ e ∈ Finset.univ.filter (fun e : Fin E => dstRow? N idx e = some i), upd (ix2 e c) := by
  show x (ix2 i c) + ∑ j ∈ Finset.univ.filter (fun j => (rowScatterDims N E C wf).resultIdx? j idx = some (ix2 i c)), upd j = _
  congr 1
  refine Finset.sum_nbij' (fun j => j 0) (fun e => ix2 e c) ?_ ?_ ?_ ?_ ?_
  · intro j hj
    rw [Finset.mem_filter] at hj
    exact Finset.mem_filter.mpr ⟨Finset.mem_univ _, ((rowScatter_resultIdx?_eq_some wf idx j i c).mp hj.2).1⟩
  · intro e he
    rw [Finset.mem_filter] at he
    exact Finset.mem_filter.mpr ⟨Finset.mem_univ _, (rowScatter_resultIdx?_eq_some wf idx (ix2 e c) i c).mpr ⟨he.2, rfl⟩⟩
  · intro j hj
    rw [Finset.mem_filter] at hj
    have h1 := ((rowScatter_resultIdx?_eq_some wf idx j i c).mp hj.2).2
    rw [← h1]; exact (eq_ix2 j).symm
  · intro e _; rfl
  · intro j hj
    rw [Finset.mem_filter] at hj
    have h1 := ((rowScatter_resultIdx?_eq_some wf idx j i c).mp hj.2).2
    rw [← h1]; exact congrArg upd (eq_ix2 j)

end ScatterAdd

end Cert.LibAggRows

end
-- ==== Proof.LibRealSums.lean ====
/-
  The extended reals that are real numbers. They are closed under the operations of the ideal instance that a
  sum-and-scale computation uses (sum, product, maximum, finite sums, the quotient of one by a real that is at least one),
  the bit patterns of zero and of one denote them, and over them a scaled aggregate of matrix products is the matrix
  product of the scaled aggregate: the distributive law, which fails over the extended reals at large (a sum that meets
  both infinities) and holds as soon as every entry is a real number.
-/
import Idealize.ShloMosaic.PureOps.Ideal
import Idealize.ShloMosaic.PureOps.Ideal.Laws
import Idealize.ShloMosaic.Lib.IdealHost
import Mathlib.Algebra.BigOperators.Ring.Finset
import Mathlib.Tactic.Ring
import Mathlib.Tactic.Linarith

namespace Cert.LibRealSums

open Idealize.ShloMosaic

/-- An extended real that is a real number: neither infinity. -/
def IsReal (x : EReal) : Prop := ∃ r : ℝ, x = (r : EReal)

/-- A real number, seen as an extended real, is a real number. -/
theorem isReal_coe (r : ℝ) : IsReal (r : EReal) := ⟨r, rfl⟩

/-- Zero is a real number. -/
theorem isReal_zero : IsReal 0 := ⟨0, EReal.coe_zero.symm⟩

/-- One is a real number. -/
theorem isReal_one : IsReal 1 := ⟨1, EReal.coe_one.symm⟩

/-- The sum of two real numbers is a real number. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- The product of two real numbers is a real number. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The larger of two real numbers is a real number: it is one of the two. -/
theorem isReal_max {x y : EReal} (hx : IsReal x) (hy : IsReal y) : IsReal (max x y) := by
  rcases le_total x y with h | h
  · rw [max_eq_right h]; exact hy
  · rw [max_eq_left h]; exact hx

/-- A finite sum of real numbers is a real number. -/
theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact isReal_add (h a (Finset.mem_insert_self a s)) (ih fun i hi => h i (Finset.mem_insert_of_mem hi))

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The single-precision pattern of zero denotes zero. -/
theorem ofBits_zero : Ideal.ofBits .f32 0x00000000#32 = 0 := Ideal.ofBits_zero_f32

/-- The single-precision pattern `0x3F800000` denotes one. -/
theorem ofBits_one : Ideal.ofBits .f32 0x3F800000#32 = 1 := Ideal.ofBits_one_f32

/-- The single-precision pattern of zero denotes a real number. -/
theorem isReal_ofBits_zero : IsReal (Ideal.ofBits .f32 0x00000000#32) := by
  rw [ofBits_zero]; exact isReal_zero

/-- The single-precision pattern of one denotes a real number. -/
theorem isReal_ofBits_one : IsReal (Ideal.ofBits .f32 0x3F800000#32) := by
  rw [ofBits_one]; exact isReal_one

/-- The inverse degree: the quotient of one by the larger of a real number and one is a real number. The divisor is a
    real that is at least one, so it is not zero, and the quotient is the product with its reciprocal. -/
theorem isReal_invDeg (d : EReal) (hd : IsReal d) : IsReal (Ideal.div 1 (max d 1)) := by
  obtain ⟨m, hm⟩ := isReal_max hd isReal_one
  have h1 : (1 : ℝ) ≤ m := by
    have h : ((1 : ℝ) : EReal) ≤ (m : EReal) := by
      rw [← hm, EReal.coe_one]; exact le_max_right _ _
    exact EReal.coe_le_coe_iff.1 h
  have hne : m ≠ 0 := by linarith
  rw [hm, Ideal.div_coe hne, one_mul]
  exact isReal_coe _

/-- The distributive law of the aggregation. Over real entries, the sum over a set `S` of rows of the matrix products
    `∑ k, a e k * w k`, scaled by `v`, is the matrix product of the scaled sum of the rows: both are the double sum of
    `a e k * v * w k`. The leading zeros are the initial values the two sums start from. -/
theorem agg_law {ι κ : Type} [Fintype κ] (S : Finset ι) (a : ι → κ → EReal) (w : κ → EReal) (v : EReal)
    (ha : ∀ e k, IsReal (a e k)) (hw : ∀ k, IsReal (w k)) (hv : IsReal v) :
    (0 + ∑ e ∈ S, ∑ k, a e k * w k) * v = ∑ k, ((0 + ∑ e ∈ S, a e k) * v) * w k := by
  choose ar har using ha
  choose wr hwr using hw
  obtain ⟨vr, rfl⟩ := hv
  obtain rfl : a = fun e k => (ar e k : EReal) := funext fun e => funext fun k => har e k
  obtain rfl : w = fun k => (wr k : EReal) := funext hwr
  simp only [zero_add, ← EReal.coe_mul, ← coe_sum]
  congr 1
  simp only [Finset.sum_mul]
  rw [Finset.sum_comm]
  exact Finset.sum_congr rfl fun k _ => Finset.sum_congr rfl fun e _ => by ring

end Cert.LibRealSums
-- ==== Proof.LibMeanStep.lean ====
/-
  MEAN AGGREGATION OVER A DIRECTED EDGE LIST, READ AT AN ENTRY.

  A graph has N nodes and E edges; an edge list gives, per edge, the node a message is read from and the node it is
  added to, each as an integer word in an [E, 1] column. One aggregation step takes a table of node features [N, C] and a
  vector of per-node scales [N] (the reciprocal of a degree clamped below at one) and returns, at node i and
  column c,

      (0 + the sum over the edges e landing on i of table(row read by e, c)) * scale(i).

  The row an edge reads is its word read signed and clamped into [0, N-1]; the node it lands on is its word read signed
  and NOT clamped, the edge being dropped when the word is outside [0, N). Every entry of the result is a real
  number as soon as every entry of the table and of the scales is.
-/
import Idealize.ShloMosaic.PureOps.Ideal
import Idealize.ShloMosaic.PureOps.Ideal.Laws
import Idealize.ShloMosaic.Lib.ValueIdx
import Idealize.ShloMosaic.Lib.Pipeline.Value
import proofs.«126144_j67336497266901_2_alg».proof.Proof.LibAggRows
import proofs.«126144_j67336497266901_2_alg».proof.Proof.LibRealSums

noncomputable section

open scoped BigOperators

namespace Cert.MeanAgg

open Idealize.ShloMosaic Idealize.ShloMosaic.ValueIdx Cert.LibAggRows Cert.LibRealSums

/-- Every entry of an array of extended reals is a real number. -/
def AllReal {s : Shape} (x : FVec Ideal s .f32) : Prop := ∀ i, IsReal (x i)

variable {N E C w : Nat}

/-! ## Layouts of a per-node vector -/

/-- A vector [N] laid out as a column [N, 1] reads, in row i, the vector's entry i. -/
theorem column_apply {α : Type} (h1 : (⟨1, ![N]⟩ : Shape).BroadcastsInDim ⟨2, ![N, 1]⟩ ![0])
    (x : (⟨1, ![N]⟩ : Shape).Idx → α) (i : Fin N) (z : Fin 1) :
    broadcastInDim ⟨2, ![N, 1]⟩ ![0] h1 x (ix2 i z) = x (ix1 i) := by
  refine broadcastInDim_apply ![0] h1 x (ix2 i z) (ix1 i) fun a => ?_
  match a with
  | ⟨0, _⟩ =>
    show i.val = if N = 1 then 0 else i.val
    split_ifs with h
    · have := i.isLt; omega
    · rfl

/-- A column [N, 1] spread over [N, C] reads, at (i, c), the column's entry in row i. -/
theorem spread_apply {α : Type} (h2 : (⟨2, ![N, 1]⟩ : Shape).BroadcastsInDim ⟨2, ![N, C]⟩ ![0, 1])
    (x : (⟨2, ![N, 1]⟩ : Shape).Idx → α) (i : Fin N) (c : Fin C) :
    broadcastInDim ⟨2, ![N, C]⟩ ![0, 1] h2 x (ix2 i c) = x (ix2 i (0 : Fin 1)) := by
  refine broadcastInDim_apply ![0, 1] h2 x (ix2 i c) (ix2 i (0 : Fin 1)) fun a => ?_
  match a with
  | ⟨0, _⟩ =>
    show i.val = if N = 1 then 0 else i.val
    split_ifs with h
    · have := i.isLt; omega
    · rfl
  | ⟨1, _⟩ =>
    show (0 : Nat) = if (1 : Nat) = 1 then 0 else c.val
    rfl

/-- A scalar spread over any shape reads the scalar everywhere. -/
theorem scalar_apply {α : Type} {t : Shape} (hz : (⟨0, ![]⟩ : Shape).BroadcastsInDim t ![])
    (x : (⟨0, ![]⟩ : Shape).Idx → α) (j : t.Idx) :
    broadcastInDim t ![] hz x j = x (fun a => a.elim0) :=
  broadcastInDim_apply ![] hz x j (fun a => a.elim0) fun a => a.elim0

/-! ## The aggregation at an entry -/

/-- Entry (i, c) of one mean-aggregation step. -/
def aggAt (hN : 0 < N) (tbl : FVec Ideal ⟨2, ![N, C]⟩ .f32) (gidx sidx : IVec ⟨2, ![E, 1]⟩ w)
    (inv : FVec Ideal ⟨1, ![N]⟩ .f32) (i : Fin N) (c : Fin C) : EReal :=
  (0 + ∑ e ∈ Finset.univ.filter (fun e : Fin E => dstRow? N sidx e = some i), tbl (ix2 (srcRow N hN gidx e) c))
    * inv (ix1 i)

/-- The host's spelling of the step — rows gathered through one index column, added into a zero table through the
    other, and the result scaled row by row by the vector laid out as a column and spread over the columns — read at
    (i, c). -/
theorem hostAgg_apply (hN : 0 < N)
    (wfG : GatherDims.WF ⟨2, ![N, C]⟩ ⟨2, ![E, 1]⟩ ⟨2, ![E, C]⟩ [1] [0] [] [0] [] 1 ![1, C])
    (wfS : ScatterDims.WF ⟨2, ![N, C]⟩ ⟨2, ![E, 1]⟩ ⟨2, ![E, C]⟩ [1] [0] [0] 1)
    (hz : (⟨0, ![]⟩ : Shape).BroadcastsInDim ⟨2, ![N, C]⟩ ![])
    (h1 : (⟨1, ![N]⟩ : Shape).BroadcastsInDim ⟨2, ![N, 1]⟩ ![0])
    (h2 : (⟨2, ![N, 1]⟩ : Shape).BroadcastsInDim ⟨2, ![N, C]⟩ ![0, 1])
    (tbl : FVec Ideal ⟨2, ![N, C]⟩ .f32) (gidx sidx : IVec ⟨2, ![E, 1]⟩ w) (inv : FVec Ideal ⟨1, ![N]⟩ .f32)
    (i : Fin N) (c : Fin C) :
    mulf (Host.scatterAdd (F := Ideal) (rowScatterDims N E C wfS)
        (broadcastInDim ⟨2, ![N, C]⟩ ![] hz (constant (F := Ideal) ⟨0, ![]⟩ .f32 0x00000000#32)) sidx
        (Host.gather (rowGatherDims N E C wfG) tbl gidx))
      (broadcastInDim ⟨2, ![N, C]⟩ ![0, 1] h2 (broadcastInDim ⟨2, ![N, 1]⟩ ![0] h1 inv)) (ix2 i c)
    = aggAt hN tbl gidx sidx inv i c := by
  rw [mulf_apply, rowScatterAdd_apply, spread_apply, column_apply, scalar_apply, constant_apply, Ideal.ofBits_zero_f32]
  unfold aggAt
  congr 2
  exact Finset.sum_congr rfl fun e _ => rowGather_apply hN wfG tbl gidx e c

/-- Over a real table and real scales every entry of the step is a real number. -/
theorem isReal_aggAt (hN : 0 < N) (tbl : FVec Ideal ⟨2, ![N, C]⟩ .f32) (gidx sidx : IVec ⟨2, ![E, 1]⟩ w)
    (inv : FVec Ideal ⟨1, ![N]⟩ .f32) (ht : AllReal tbl) (hi : AllReal inv) (i : Fin N) (c : Fin C) :
    IsReal (aggAt hN tbl gidx sidx inv i c) :=
  isReal_mul (isReal_add isReal_zero (isReal_sum _ _ fun _ _ => ht _)) (hi _)

end Cert.MeanAgg

end
-- ==== Proof.KernelTail.lean ====
/-
  THE LINES AFTER THE REGION.

  After the kernel region the program cuts the region's [50000, 256] result P into its left and right halves of 128
  columns, aggregates the left half over the edges in one direction and the right half over the edges in the other
  (rows gathered through one index column with negative words wrapped by 50000, added into a zero table through the other
  column, scaled row by row by a reciprocal degree), adds the two, and adds the bias row. Here that stretch is one
  function of the six buffers it reads; it is what the run leaves in the result buffer; and at entry (i, o) it is the sum of
  two aggregation entries plus the bias.
-/
import proofs.«126144_j67336497266901_2_alg».proof.Proof.Gen.KernelIdeal.Frame
import Idealize.ShloMosaic.Lib.StableHlo.Run
import Idealize.ShloMosaic.Lib.Pipeline.Value
import Idealize.ShloMosaic.Lib.ValueIdx
import proofs.«126144_j67336497266901_2_alg».proof.Proof.LibMeanStep

set_option maxRecDepth 16384

noncomputable section

namespace Cert.KernelIdeal.Tail

open Cert.KernelIdeal Cert.KernelIdeal.Gen Idealize.ShloMosaic Idealize.ShloMosaic.TcCoe Idealize.SL.Sem
open Idealize.ShloMosaic.StableHlo Idealize.ShloMosaic.ValueIdx

section AnyInstance
variable {F : FTy → Type} [FloatOps F]

/-- A vector of edge words as an index column. -/
def col (s : IVec S800000 32) : IVec S800000x1 32 := broadcastInDim S800000x1 ![0] bcast_S800000_S800000x1_0 s

/-- The same with each negative word raised by 50000 first. -/
def wrapCol (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- One aggregation of a [50000, 128] table. -/
def step (T : FVec F S50000x128 .f32) (g sc : IVec S800000x1 32) (inv : FVec F S50000 .f32) : FVec F S50000x128 .f32 :=
  mulf (Host.scatterAdd scatter_S50000x128_S800000x1_S800000x128_1_0_0_1
      (broadcastInDim S50000x128 ![] bcast_S_S50000x128 (constant S_ .f32 0x00000000#32)) sc
      (Host.gather gather_S50000x128_S800000x1_S800000x128_1_0_n_n_0_1_1128 T g))
    (broadcastInDim S50000x128 ![0, 1] bcast_S50000x1_S50000x128_0_1
      (broadcastInDim S50000x1 ![0] bcast_S50000_S50000x1_0 inv))

/-- The whole stretch: from the region's result, the two edge vectors, the two reciprocal degrees and the bias. -/
def tail (P : FVec F S50000x256 .f32) (s d : IVec S800000 32) (ii io : FVec F S50000 .f32) (b : FVec F S128 .f32) :
    FVec F S50000x128 .f32 :=
  addf (addf
      (step (extractStridedSlice S50000x128 ![0, 0] P slices_S50000x256_S50000x128_0_0) (wrapCol s) (col d) ii)
      (step (extractStridedSlice S50000x128 ![0, 128] P slices_S50000x256_S50000x128_0_128) (wrapCol d) (col s) io))
    (broadcastInDim S50000x128 ![0, 1] bcast_S1x128_S50000x128_0_1 (broadcastInDim S1x128 ![1] bcast_S128_S1x128_1 b))

/-- Equal buffers give equal results. -/
theorem tail_congr {P P' : FVec F S50000x256 .f32} {s s' d d' : IVec S800000 32} {ii ii' io io' : FVec F S50000 .f32}
    {b b' : FVec F S128 .f32} (h1 : P = P') (h2 : s = s') (h3 : d = d') (h4 : ii = ii') (h5 : io = io') (h6 : b = b') :
    tail P s d ii io b = tail P' s' d' ii' io' b' := by
  subst h1 h2 h3 h4 h5 h6; rfl

set_option maxHeartbeats 4000000 in
/-- The stretch run from any buffer contents leaves, in the result buffer, its function of the six buffers it reads. -/
theorem after_tail (X : Valuation τ sig (Elt F)) :
    StableHlo.after hostOps1 X (Proc.devRef .tc main_v0)
      = tail (X (Proc.devRef .tc main_call0_v78)) (X (Proc.devRef .tc main_call0_v1))
          (X (Proc.devRef .tc main_call0_v3)) (X (Proc.devRef .tc main_call0_v14))
          (X (Proc.devRef .tc main_call0_v18)) (X (Proc.devRef .tc main_arg3)) := by
  after_results_simp
  rfl

variable (m : (ℓ : Loc nD τ sig) → Buf (Elt F) ℓ)

/-- What the frame run leaves in the result buffer: the stretch's function of the region's output array and of the
    buffers the lines before the region wrote. -/
theorem result_eq (c : Dev nD) :
    Pipeline.afterTail₀ cfgs (dats m) 0 (V0 m) [hostOps1] c main_v0
      = tail ((dats m 0 c).arrAt 2 cfg0.N) (V m c main_call0_v1) (V m c main_call0_v3) (V m c main_call0_v14)
          (V m c main_call0_v18) (V m c main_arg3) := by
  unfold Pipeline.afterTail₀
  show StableHlo.after hostOps1 _ (Proc.devRef .tc main_v0) = _
  refine (after_tail _).trans (tail_congr ?_ ?_ ?_ ?_ ?_ ?_)
  · exact Pipeline.withArrays_arr spec0 launch0.win.arr_inj c _ _ 2
  · exact Pipeline.withArrays_of_ne _ c (V0 m c) _ main_call0_v1 (by exact (by decide : ∀ w, Pipeline.arrRef spec0 w ≠ main_call0_v1))
  · exact Pipeline.withArrays_of_ne _ c (V0 m c) _ main_call0_v3 (by exact (by decide : ∀ w, Pipeline.arrRef spec0 w ≠ main_call0_v3))
  · exact Pipeline.withArrays_of_ne _ c (V0 m c) _ main_call0_v14 (by exact (by decide : ∀ w, Pipeline.arrRef spec0 w ≠ main_call0_v14))
  · exact Pipeline.withArrays_of_ne _ c (V0 m c) _ main_call0_v18 (by exact (by decide : ∀ w, Pipeline.arrRef spec0 w ≠ main_call0_v18))
  · exact Pipeline.withArrays_of_ne _ c (V0 m c) _ main_arg3 (by exact (by decide : ∀ w, Pipeline.arrRef spec0 w ≠ main_arg3))

end AnyInstance

/-! ## At an entry, on the extended reals -/

open Cert.MeanAgg

/-- One aggregation at (i, o). -/
theorem step_apply (T : FVec Ideal S50000x128 .f32) (g sc : IVec S800000x1 32) (inv : FVec Ideal S50000 .f32)
    (i : Fin 50000) (o : Fin 128) :
    step (F := Ideal) T g sc inv (ix2 i o) = aggAt (N := 50000) (E := 800000) (C := 128) (by decide) T g sc inv i o := by
  unfold step
  exact hostAgg_apply (N := 50000) (E := 800000) (C := 128) (by decide)
    gather_S50000x128_S800000x1_S800000x128_1_0_n_n_0_1_1128.wf scatter_S50000x128_S800000x1_S800000x128_1_0_0_1.wf
    bcast_S_S50000x128 bcast_S50000_S50000x1_0 bcast_S50000x1_S50000x128_0_1 T g sc inv i o

/-- The bias row spread over the rows reads, at (i, o), the bias's entry o. -/
theorem bias_apply {α : Type} (b : S128.Idx → α) (i : Fin 50000) (o : Fin 128) :
    broadcastInDim S50000x128 ![0, 1] bcast_S1x128_S50000x128_0_1 (broadcastInDim S1x128 ![1] bcast_S128_S1x128_1 b) (ix2 i o)
      = b (ix1 o) := by
  rw [broadcastInDim_apply ![0, 1] bcast_S1x128_S50000x128_0_1 _ (ix2 i o) (ix2 (0 : Fin 1) o) (fun a => by
      match a with
      | ⟨0, _⟩ => rfl
      | ⟨1, _⟩ => rfl),
    broadcastInDim_apply ![1] bcast_S128_S1x128_1 b (ix2 (0 : Fin 1) o) (ix1 o) (fun a => by
      match a with
      | ⟨0, _⟩ => rfl)]

/-- The stretch at (i, o): the two aggregation entries and the bias. -/
theorem tail_apply (P : FVec Ideal S50000x256 .f32) (s d : IVec S800000 32) (ii io : FVec Ideal S50000 .f32)
    (b : FVec Ideal S128 .f32) (i : Fin 50000) (o : Fin 128) :
    tail (F := Ideal) P s d ii io b (ix2 i o)
      = (aggAt (N := 50000) (E := 800000) (C := 128) (by decide)
            (extractStridedSlice S50000x128 ![0, 0] P slices_S50000x256_S50000x128_0_0) (wrapCol s) (col d) ii i o
          + aggAt (N := 50000) (E := 800000) (C := 128) (by decide)
            (extractStridedSlice S50000x128 ![0, 128] P slices_S50000x256_S50000x128_0_128) (wrapCol d) (col s) io i o)
        + b (ix1 o) := by
  unfold tail
  rw [addf_apply, addf_apply, step_apply, step_apply, bias_apply]

end Cert.KernelIdeal.Tail

end
-- ==== Proof.LibTRefCasts.lean ====
/-
  The operations of a function that the host program calls (here the clamp at zero) are printed over typed references:
  a value's contents are carried to its buffer's type and back by a cast along an equation between the two spellings of
  one type.  The casts change nothing: there and back is the identity, and each way the contents stay the same up to
  the spelling of their type.
-/
import Idealize.ShloMosaic.Lib.StableHlo

namespace Cert.Casts

open Idealize.ShloMosaic Idealize.ShloMosaic.StableHlo

variable {sig : RefSig} {Val : EltTy → Type} {T : BufTy}

/-- Contents carried to a typed reference's buffer and back are the contents. -/
theorem ofBuf_toBuf (x : TRef sig T) (w : T.Contents Val) : x.ofBuf (x.toBuf w) = w := by
  show cast _ (cast _ w) = w
  rw [cast_cast, cast_eq]

/-- Carrying contents to a typed reference's buffer changes nothing but the spelling of their type. -/
theorem toBuf_heq (x : TRef sig T) (w : T.Contents Val) : HEq (x.toBuf w) w := cast_heq _ _

/-- Carrying a buffer's contents to the value's type changes nothing but the spelling of their type. -/
theorem ofBuf_heq (x : TRef sig T) (u : x.ref.ty.Contents Val) : HEq (x.ofBuf u) u := cast_heq _ _

end Cert.Casts
-- ==== Proof.LibConcatCols.lean ====
/-
  Two matrices joined side by side, read at an entry. For a [K, N₁] matrix and a [K, N₂] matrix concatenated along
  the column axis into a [K, N] matrix, the entry in column q is the left matrix's entry in column q when q < N₁, and the
  right matrix's entry in column q - N₁ otherwise. Consequently a sum over k of x(r, k) * joined(k, q) is the same sum
  against the one matrix the column q falls in: a product with the joined matrix, cut back into its two column ranges,
  is the two products.
-/
import Idealize.ShloMosaic.PureOps.Ideal
import Idealize.ShloMosaic.Lib.Pipeline.Value
import Idealize.ShloMosaic.Lib.ValueIdx

noncomputable section

open scoped BigOperators

namespace Cert.LibConcatCols

open Idealize.ShloMosaic Idealize.ShloMosaic.ValueIdx

variable {α : Type} {K N₁ N₂ N : Nat}

/-- A column of the joined matrix that lies in the left matrix's range is that matrix's column. -/
theorem cols_left (a : (⟨2, ![K, N₁]⟩ : Shape).Idx → α) (b : (⟨2, ![K, N₂]⟩ : Shape).Idx → α)
    (h : Shape.Concatenates [(⟨2, ![K, N₁]⟩ : Shape), ⟨2, ![K, N₂]⟩] ⟨2, ![K, N]⟩ 1)
    (k : Fin K) (q : Fin N) (q' : Fin N₁) (hq : q'.val = q.val) :
    concatenate ⟨2, ![K, N]⟩ 1 [⟨⟨2, ![K, N₁]⟩, a⟩, ⟨⟨2, ![K, N₂]⟩, b⟩] h (ix2 k q) = a (ix2 k q') := by
  refine concatenate_pair_apply_left 1 a b h (ix2 k q) rfl (ix2 k q') fun d => ?_
  match d with
  | ⟨0, _⟩ => rfl
  | ⟨1, _⟩ => exact hq

/-- A column past the left matrix's range is the right matrix's column, the left width less. -/
theorem cols_right (a : (⟨2, ![K, N₁]⟩ : Shape).Idx → α) (b : (⟨2, ![K, N₂]⟩ : Shape).Idx → α)
    (h : Shape.Concatenates [(⟨2, ![K, N₁]⟩ : Shape), ⟨2, ![K, N₂]⟩] ⟨2, ![K, N]⟩ 1)
    (k : Fin K) (q : Fin N) (q' : Fin N₂) (hq : q'.val + N₁ = q.val) :
    concatenate ⟨2, ![K, N]⟩ 1 [⟨⟨2, ![K, N₁]⟩, a⟩, ⟨⟨2, ![K, N₂]⟩, b⟩] h (ix2 k q) = b (ix2 k q') := by
  refine concatenate_pair_apply_right 1 a b h (ix2 k q) rfl rfl (ix2 k q') (fun d hd => ?_) hq
  match d with
  | ⟨0, _⟩ => rfl
  | ⟨1, _⟩ => exact absurd rfl hd

/-- A row of x against a left-range column of the joined matrix is that row against the left matrix's column. -/
theorem sum_cols_left {M : Nat} (x : (⟨2, ![M, K]⟩ : Shape).Idx → EReal)
    (a : (⟨2, ![K, N₁]⟩ : Shape).Idx → EReal) (b : (⟨2, ![K, N₂]⟩ : Shape).Idx → EReal)
    (h : Shape.Concatenates [(⟨2, ![K, N₁]⟩ : Shape), ⟨2, ![K, N₂]⟩] ⟨2, ![K, N]⟩ 1)
    (r : Fin M) (q : Fin N) (q' : Fin N₁) (hq : q'.val = q.val) :
    ∑ k : Fin K, x (ix2 r k) * concatenate ⟨2, ![K, N]⟩ 1 [⟨⟨2, ![K, N₁]⟩, a⟩, ⟨⟨2, ![K, N₂]⟩, b⟩] h (ix2 k q)
      = ∑ k : Fin K, x (ix2 r k) * a (ix2 k q') :=
  Finset.sum_congr rfl fun k _ => by rw [cols_left a b h k q q' hq]

/-- A row of x against a right-range column of the joined matrix is that row against the right matrix's column. -/
theorem sum_cols_right {M : Nat} (x : (⟨2, ![M, K]⟩ : Shape).Idx → EReal)
    (a : (⟨2, ![K, N₁]⟩ : Shape).Idx → EReal) (b : (⟨2, ![K, N₂]⟩ : Shape).Idx → EReal)
    (h : Shape.Concatenates [(⟨2, ![K, N₁]⟩ : Shape), ⟨2, ![K, N₂]⟩] ⟨2, ![K, N]⟩ 1)
    (r : Fin M) (q : Fin N) (q' : Fin N₂) (hq : q'.val + N₁ = q.val) :
    ∑ k : Fin K, x (ix2 r k) * concatenate ⟨2, ![K, N]⟩ 1 [⟨⟨2, ![K, N₁]⟩, a⟩, ⟨⟨2, ![K, N₂]⟩, b⟩] h (ix2 k q)
      = ∑ k : Fin K, x (ix2 r k) * b (ix2 k q') :=
  Finset.sum_congr rfl fun k _ => by rw [cols_right a b h k q q' hq]

end Cert.LibConcatCols

end
-- ==== Proof.KernelEntry.lean ====
/-
  THE JOINED WEIGHT MATRIX AND THE TWO HALVES OF THE PRODUCT, AT AN ENTRY.

  The kernel's right operand is built from the [128, 512] weight matrix W: its columns 0..255 and its columns 256..511,
  each transposed to [256, 128], laid side by side as a [256, 256] matrix. So entry (k, q) of the joined matrix is
  W(q, k) for q below 128 and W(q - 128, 256 + k) otherwise. The lines after the region then cut the product's columns
  0..127 and 128..255 apart again: the left half at (r, o) is the product at (r, o), the right half the product at
  (r, 128 + o).
-/
import proofs.«126144_j67336497266901_2_alg».proof.Proof.Gen.KernelIdeal
import Idealize.ShloMosaic.Lib.Pipeline.Value
import Idealize.ShloMosaic.Lib.ValueIdx
import proofs.«126144_j67336497266901_2_alg».proof.Proof.LibConcatCols

noncomputable section

namespace Cert.KernelIdeal.Entry

open Cert.KernelIdeal Cert.KernelIdeal.Facts₀ Idealize.ShloMosaic Idealize.ShloMosaic.ValueIdx

/-- The weight matrix's two column ranges, transposed and joined. -/
def wcat {α : Type} (W : S128x512.Idx → α) : S256x256.Idx → α :=
  concatenate S256x256 1
    [⟨S256x128, transpose S256x128 [1, 0] (extractStridedSlice S128x256 ![0, 0] W slices_S128x512_S128x256_0_0)
        transposes_S128x256_S256x128_1_0⟩,
     ⟨S256x128, transpose S256x128 [1, 0] (extractStridedSlice S128x256 ![0, 256] W slices_S128x512_S128x256_0_256)
        transposes_S128x256_S256x128_1_0⟩]
    concatenates_S256x128_S256x128_S256x256_d1

/-- A column below 128 of the joined matrix holds row o of W's first 256 columns. -/
theorem wcat_left {α : Type} (W : S128x512.Idx → α) (k q : Fin 256) (o : Fin 128) (k' : Fin 512)
    (hq : o.val = q.val) (hk : k'.val = k.val) : wcat W (ix2 k q) = W (ix2 o k') := by
  unfold wcat
  rw [Cert.LibConcatCols.cols_left _ _ _ k q o hq,
    transpose_apply [1, 0] _ transposes_S128x256_S256x128_1_0 (ix2 k o) (ix2 o k) (fun b => by
      match b with
      | ⟨0, _⟩ => rfl
      | ⟨1, _⟩ => rfl)]
  exact extractStridedSlice_apply ![0, 0] W slices_S128x512_S128x256_0_0 (ix2 o k) (ix2 o k') (fun a => by
    match a with
    | ⟨0, _⟩ => show o.val = 0 + o.val; omega
    | ⟨1, _⟩ => show k'.val = 0 + k.val; omega)

/-- A column 128 + o holds row o of W's last 256 columns. -/
theorem wcat_right {α : Type} (W : S128x512.Idx → α) (k q : Fin 256) (o : Fin 128) (k' : Fin 512)
    (hq : o.val + 128 = q.val) (hk : k'.val = 256 + k.val) : wcat W (ix2 k q) = W (ix2 o k') := by
  unfold wcat
  rw [Cert.LibConcatCols.cols_right _ _ _ k q o hq,
    transpose_apply [1, 0] _ transposes_S128x256_S256x128_1_0 (ix2 k o) (ix2 o k) (fun b => by
      match b with
      | ⟨0, _⟩ => rfl
      | ⟨1, _⟩ => rfl)]
  exact extractStridedSlice_apply ![0, 256] W slices_S128x512_S128x256_0_256 (ix2 o k) (ix2 o k') (fun a => by
    match a with
    | ⟨0, _⟩ => show o.val = 0 + o.val; omega
    | ⟨1, _⟩ => show k'.val = 256 + k.val; omega)

/-- The left half of a [50000, 256] array at (r, o). -/
theorem left_apply {α : Type} (P : S50000x256.Idx → α) (r : Fin 50000) (o : Fin 128) (q : Fin 256) (hq : q.val = o.val) :
    extractStridedSlice S50000x128 ![0, 0] P slices_S50000x256_S50000x128_0_0 (ix2 r o) = P (ix2 r q) :=
  extractStridedSlice_apply ![0, 0] P slices_S50000x256_S50000x128_0_0 (ix2 r o) (ix2 r q) (fun a => by
    match a with
    | ⟨0, _⟩ => show r.val = 0 + r.val; omega
    | ⟨1, _⟩ => show q.val = 0 + o.val; omega)

/-- The right half at (r, o). -/
theorem right_apply {α : Type} (P : S50000x256.Idx → α) (r : Fin 50000) (o : Fin 128) (q : Fin 256)
    (hq : q.val = 128 + o.val) :
    extractStridedSlice S50000x128 ![0, 128] P slices_S50000x256_S50000x128_0_128 (ix2 r o) = P (ix2 r q) :=
  extractStridedSlice_apply ![0, 128] P slices_S50000x256_S50000x128_0_128 (ix2 r o) (ix2 r q) (fun a => by
    match a with
    | ⟨0, _⟩ => show r.val = 0 + r.val; omega
    | ⟨1, _⟩ => show q.val = 128 + o.val; omega)

end Cert.KernelIdeal.Entry

end
-- ==== Proof.KernelPrefix.lean ====
/-
  THE LINES BEFORE THE REGION.

  Before the kernel region the program runs, operation for operation, the reference's own first stages: the two edge
  vectors cut out of the edge list, the reciprocals of the clamped in- and out-degrees, and two aggregation hops that take
  the [50000, 64] features to the [50000, 256] table. It then builds the joined weight matrix. Run from any buffer
  contents, that stretch leaves each of these buffers at the reference's own function of the argument buffers (the values
  pass through casts between two spellings of one buffer type, which change nothing), and the joined matrix at its
  function of the weights. The line is read in two stretches, cut after the first hop.
-/
import proofs.«126144_j67336497266901_2_alg».proof.Proof.Gen.KernelIdeal.Frame
import proofs.«126144_j67336497266901_2_alg».proof.Proof.RefDefs
import Idealize.ShloMosaic.Lib.StableHlo.Run
import proofs.«126144_j67336497266901_2_alg».proof.Proof.LibTRefCasts
import proofs.«126144_j67336497266901_2_alg».proof.Proof.KernelEntry
import proofs.«126144_j67336497266901_2_alg».proof.Proof.LibStretch

set_option maxRecDepth 16384

noncomputable section

namespace Cert.KernelIdeal.Prefix

open Cert.KernelIdeal Cert.KernelIdeal.Gen Idealize.ShloMosaic Idealize.ShloMosaic.TcCoe Idealize.SL.Sem
open Idealize.ShloMosaic.StableHlo

variable {F : FTy → Type} [FloatOps F]

/-! ## The two stretches -/

/-- Up to the first hop's result. -/
abbrev kA : List (HloOp τ sig (Elt F)) := (hostOps0 (F := F)).take 59
/-- The second hop and the joined weight matrix. -/
abbrev kB : List (HloOp τ sig (Elt F)) := (hostOps0 (F := F)).drop 59

/-- The line is its two stretches in order. -/
theorem split : (hostOps0 : List (HloOp τ sig (Elt F))) = kA ++ kB := (List.take_append_drop 59 _).symm

/-! ### First stretch -/

theorem kA_v1 (Y : Valuation τ sig (Elt F)) :
    StableHlo.after kA Y (Proc.devRef .tc main_call0_v1) = Cert.ReferenceIdeal.Spec.srcV (Y (Proc.devRef .tc main_arg1)) := by
  stretch_simp [hostOps0, kA, kB]
  try simp only [Cert.Casts.ofBuf_toBuf]
  try rfl
theorem kA_v3 (Y : Valuation τ sig (Elt F)) :
    StableHlo.after kA Y (Proc.devRef .tc main_call0_v3) = Cert.ReferenceIdeal.Spec.dstV (Y (Proc.devRef .tc main_arg1)) := by
  stretch_simp [hostOps0, kA, kB]
  try simp only [Cert.Casts.ofBuf_toBuf]
  try rfl
set_option maxHeartbeats 2000000 in
theorem kA_v14 (Y : Valuation τ sig (Elt F)) :
    StableHlo.after kA Y (Proc.devRef .tc main_call0_v14) = Cert.ReferenceIdeal.Spec.invDeg (F := F) (Cert.ReferenceIdeal.Spec.dstV (Y (Proc.devRef .tc main_arg1))) := by
  stretch_simp [hostOps0, kA, kB]
  try simp only [Cert.Casts.ofBuf_toBuf]
  try rfl
set_option maxHeartbeats 2000000 in
theorem kA_v18 (Y : Valuation τ sig (Elt F)) :
    StableHlo.after kA Y (Proc.devRef .tc main_call0_v18) = Cert.ReferenceIdeal.Spec.invDeg (F := F) (Cert.ReferenceIdeal.Spec.srcV (Y (Proc.devRef .tc main_arg1))) := by
  stretch_simp [hostOps0, kA, kB]
  try simp only [Cert.Casts.ofBuf_toBuf]
  try rfl
set_option maxHeartbeats 4000000 in
theorem kA_v45 (Y : Valuation τ sig (Elt F)) :
    StableHlo.after kA Y (Proc.devRef .tc main_call0_v45)
      = Cert.ReferenceIdeal.Spec.hop64 (F := F) (Y (Proc.devRef .tc main_arg0)) (Cert.ReferenceIdeal.Spec.srcV (Y (Proc.devRef .tc main_arg1))) (Cert.ReferenceIdeal.Spec.dstV (Y (Proc.devRef .tc main_arg1)))
          (Cert.ReferenceIdeal.Spec.invDeg (Cert.ReferenceIdeal.Spec.dstV (Y (Proc.devRef .tc main_arg1)))) (Cert.ReferenceIdeal.Spec.invDeg (Cert.ReferenceIdeal.Spec.srcV (Y (Proc.devRef .tc main_arg1)))) := by
  stretch_simp [hostOps0, kA, kB]
  try simp only [Cert.Casts.ofBuf_toBuf]
  unfold Cert.ReferenceIdeal.Spec.hop64
  refine Cert.Stretch.concat2_congr 1 concatenates_S50000x64_S50000x64_S50000x128_d1 concatenates_S50000x64_S50000x64_S50000x128_d1 ?_ ?_
  · stretch_simp [hostOps0, kA, kB]
    try simp only [Cert.Casts.ofBuf_toBuf]
    try rfl
  · stretch_simp [hostOps0, kA, kB]
    try simp only [Cert.Casts.ofBuf_toBuf]
    try rfl
theorem kA_keep_arg2 (Y : Valuation τ sig (Elt F)) :
    StableHlo.after kA Y (Proc.devRef .tc main_arg2) = Y (Proc.devRef .tc main_arg2) := by
  stretch_simp [hostOps0, kA, kB]

/-! ### Second stretch -/

set_option maxHeartbeats 4000000 in
theorem kB_v72 (Y : Valuation τ sig (Elt F)) :
    StableHlo.after kB Y (Proc.devRef .tc main_call0_v72)
      = Cert.ReferenceIdeal.Spec.hop128 (F := F) (Y (Proc.devRef .tc main_call0_v45)) (Y (Proc.devRef .tc main_call0_v1)) (Y (Proc.devRef .tc main_call0_v3))
          (Y (Proc.devRef .tc main_call0_v14)) (Y (Proc.devRef .tc main_call0_v18)) := by
  stretch_simp [hostOps0, kA, kB]
  try simp only [Cert.Casts.ofBuf_toBuf]
  unfold Cert.ReferenceIdeal.Spec.hop128
  refine Cert.Stretch.concat2_congr 1 concatenates_S50000x128_S50000x128_S50000x256_d1 concatenates_S50000x128_S50000x128_S50000x256_d1 ?_ ?_
  · stretch_simp [hostOps0, kA, kB]
    try simp only [Cert.Casts.ofBuf_toBuf]
    try rfl
  · stretch_simp [hostOps0, kA, kB]
    try simp only [Cert.Casts.ofBuf_toBuf]
    try rfl
set_option maxHeartbeats 2000000 in
theorem kB_v77 (Y : Valuation τ sig (Elt F)) :
    StableHlo.after kB Y (Proc.devRef .tc main_call0_v77) = Cert.KernelIdeal.Entry.wcat (Y (Proc.devRef .tc main_arg2)) := by
  stretch_simp [hostOps0, kA, kB]
  try simp only [Cert.Casts.ofBuf_toBuf]
  unfold Cert.KernelIdeal.Entry.wcat
  refine Cert.Stretch.concat2_congr 1 concatenates_S256x128_S256x128_S256x256_d1 concatenates_S256x128_S256x128_S256x256_d1 ?_ ?_
  · stretch_simp [hostOps0, kA, kB]
    try simp only [Cert.Casts.ofBuf_toBuf]
    try rfl
  · stretch_simp [hostOps0, kA, kB]
    try simp only [Cert.Casts.ofBuf_toBuf]
    try rfl
theorem kB_keep_v1 (Y : Valuation τ sig (Elt F)) :
    StableHlo.after kB Y (Proc.devRef .tc main_call0_v1) = Y (Proc.devRef .tc main_call0_v1) := by
  stretch_simp [hostOps0, kA, kB]
theorem kB_keep_v3 (Y : Valuation τ sig (Elt F)) :
    StableHlo.after kB Y (Proc.devRef .tc main_call0_v3) = Y (Proc.devRef .tc main_call0_v3) := by
  stretch_simp [hostOps0, kA, kB]
theorem kB_keep_v14 (Y : Valuation τ sig (Elt F)) :
    StableHlo.after kB Y (Proc.devRef .tc main_call0_v14) = Y (Proc.devRef .tc main_call0_v14) := by
  stretch_simp [hostOps0, kA, kB]
theorem kB_keep_v18 (Y : Valuation τ sig (Elt F)) :
    StableHlo.after kB Y (Proc.devRef .tc main_call0_v18) = Y (Proc.devRef .tc main_call0_v18) := by
  stretch_simp [hostOps0, kA, kB]

/-! ## The whole line, from any contents -/

/-- The vector of the edges' first words. -/
theorem pre_v1 (X : Valuation τ sig (Elt F)) : StableHlo.after hostOps0 X (Proc.devRef .tc main_call0_v1)
    = Cert.ReferenceIdeal.Spec.srcV (X (Proc.devRef .tc main_arg1)) := by
  rw [split, Cert.FoldAppend.after_append, kB_keep_v1, kA_v1]
/-- The vector of the edges' second words. -/
theorem pre_v3 (X : Valuation τ sig (Elt F)) : StableHlo.after hostOps0 X (Proc.devRef .tc main_call0_v3)
    = Cert.ReferenceIdeal.Spec.dstV (X (Proc.devRef .tc main_arg1)) := by
  rw [split, Cert.FoldAppend.after_append, kB_keep_v3, kA_v3]
/-- The reciprocal of the clamped in-degree. -/
theorem pre_v14 (X : Valuation τ sig (Elt F)) : StableHlo.after hostOps0 X (Proc.devRef .tc main_call0_v14)
    = Cert.ReferenceIdeal.Spec.invDeg (F := F) (Cert.ReferenceIdeal.Spec.dstV (X (Proc.devRef .tc main_arg1))) := by
  rw [split, Cert.FoldAppend.after_append, kB_keep_v14, kA_v14]
/-- The reciprocal of the clamped out-degree. -/
theorem pre_v18 (X : Valuation τ sig (Elt F)) : StableHlo.after hostOps0 X (Proc.devRef .tc main_call0_v18)
    = Cert.ReferenceIdeal.Spec.invDeg (F := F) (Cert.ReferenceIdeal.Spec.srcV (X (Proc.devRef .tc main_arg1))) := by
  rw [split, Cert.FoldAppend.after_append, kB_keep_v18, kA_v18]
/-- The table after two hops. -/
theorem pre_v72 (X : Valuation τ sig (Elt F)) : StableHlo.after hostOps0 X (Proc.devRef .tc main_call0_v72)
    = Cert.ReferenceIdeal.Spec.table (F := F) (X (Proc.devRef .tc main_arg0)) (X (Proc.devRef .tc main_arg1)) := by
  rw [split, Cert.FoldAppend.after_append, kB_v72, kA_v45, kA_v1, kA_v3, kA_v14, kA_v18]
  rfl
/-- The joined weight matrix. -/
theorem pre_v77 (X : Valuation τ sig (Elt F)) : StableHlo.after hostOps0 X (Proc.devRef .tc main_call0_v77)
    = Cert.KernelIdeal.Entry.wcat (X (Proc.devRef .tc main_arg2)) := by
  rw [split, Cert.FoldAppend.after_append, kB_v77, kA_keep_arg2]

variable (m : (ℓ : Loc nD τ sig) → Buf (Elt F) ℓ)

/-- The same at the buffers as the region finds them, from the launch contents. -/
theorem V_v1 (c : Dev nD) : V m c main_call0_v1 = Cert.ReferenceIdeal.Spec.srcV (m ((c : Thread nD τ).loc main_arg1)) := by
  show StableHlo.after hostOps0 (fun b => m (c, b)) (Proc.devRef .tc main_call0_v1) = _
  exact pre_v1 _
theorem V_v3 (c : Dev nD) : V m c main_call0_v3 = Cert.ReferenceIdeal.Spec.dstV (m ((c : Thread nD τ).loc main_arg1)) := by
  show StableHlo.after hostOps0 (fun b => m (c, b)) (Proc.devRef .tc main_call0_v3) = _
  exact pre_v3 _
theorem V_v14 (c : Dev nD) : V m c main_call0_v14
    = Cert.ReferenceIdeal.Spec.invDeg (F := F) (Cert.ReferenceIdeal.Spec.dstV (m ((c : Thread nD τ).loc main_arg1))) := by
  show StableHlo.after hostOps0 (fun b => m (c, b)) (Proc.devRef .tc main_call0_v14) = _
  exact pre_v14 _
theorem V_v18 (c : Dev nD) : V m c main_call0_v18
    = Cert.ReferenceIdeal.Spec.invDeg (F := F) (Cert.ReferenceIdeal.Spec.srcV (m ((c : Thread nD τ).loc main_arg1))) := by
  show StableHlo.after hostOps0 (fun b => m (c, b)) (Proc.devRef .tc main_call0_v18) = _
  exact pre_v18 _
theorem V_v72 (c : Dev nD) : V m c main_call0_v72
    = Cert.ReferenceIdeal.Spec.table (F := F) (m ((c : Thread nD τ).loc main_arg0)) (m ((c : Thread nD τ).loc main_arg1)) := by
  show StableHlo.after hostOps0 (fun b => m (c, b)) (Proc.devRef .tc main_call0_v72) = _
  exact pre_v72 _
theorem V_v77 (c : Dev nD) : V m c main_call0_v77
    = Cert.KernelIdeal.Entry.wcat (m ((c : Thread nD τ).loc main_arg2)) := by
  show StableHlo.after hostOps0 (fun b => m (c, b)) (Proc.devRef .tc main_call0_v77) = _
  exact pre_v77 _

end Cert.KernelIdeal.Prefix

end
-- ==== Proof.LibDotsNT.lean ====
/-
  Matrix products read at an entry, on the extended reals.

  * Right operand contracted on its LAST axis: for dimension numbers that contract the second axis of an [M, K] array
    with the second axis of an [N, K] array, with no batch axes, the product at entry (r, q) is the sum over k of
    left(r, k) * right(q, k) -- for the matrix unit's product into a zero accumulator (`nt_matmul_zero_apply`) and
    for the host's dot_general (`nt_dotGeneral_apply`).
  * The host's dot_general with the plain dimension numbers, [M, K] by [K, N]: at entry (r, q) the sum over k of
    left(r, k) * right(k, q) (`plain_dotGeneral_apply`).
-/
import Idealize.ShloMosaic.PureOps.Ideal
import Idealize.ShloMosaic.PureOps.Ideal.Laws
import Idealize.ShloMosaic.Lib.ValueIdx

noncomputable section

open scoped BigOperators

namespace Cert.LibDotsNT

open Idealize.ShloMosaic Idealize.ShloMosaic.ValueIdx

section NT

variable {M K N : Nat} (d : DotDims ⟨2, ![M, K]⟩ ⟨2, ![N, K]⟩ ⟨2, ![M, N]⟩)
  (hlc : d.lhsContracting = [1]) (hrc : d.rhsContracting = [1]) (hln : d.lhsNonContracting = [0])
  (hrn : d.rhsNonContracting = [0]) (hlb : d.lhsBatch = []) (hrb : d.rhsBatch = [])

include hlc in
theorem nt_rank_contr_one : d.contr.rank = 1 := by rw [d.rank_contr, hlc]; rfl

include hlc in
theorem nt_size_contr_zero : d.contr.size ⟨0, by rw [nt_rank_contr_one d hlc]; exact Nat.one_pos⟩ = K := by
  have := d.size_contr 0 (by rw [hlc]; exact Nat.one_pos)
  rw [this]
  simp [hlc]

include hln hlb in
/-- The left operand is read in the row of the result entry ... -/
theorem nt_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- ... and the right operand in the row numbered by the result entry's column. -/
theorem nt_rhs_row (j : (⟨2, ![M, N]⟩ : Shape).Idx) (k : d.contr.Idx) : ((d.rhsIdx j k 0 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The contraction's sum re-indexed by the one contracted coordinate. -/
theorem nt_sum_apply {φ₁ φ₂ : FTy} (lhs : FVec Ideal ⟨2, ![M, K]⟩ φ₁) (rhs : FVec Ideal ⟨2, ![N, K]⟩ φ₂) (r : Fin M) (q : Fin N) :
    ∑ k : d.contr.Idx, lhs (d.lhsIdx (ix2 r q) k) * rhs (d.rhsIdx (ix2 r q) k)
      = ∑ k : Fin K, lhs (ix2 r k) * rhs (ix2 q k) := by
  rw [← Equiv.sum_comp (contrEquiv1 d K (nt_rank_contr_one d hlc) (nt_size_contr_zero d hlc)).symm]
  refine Finset.sum_congr rfl fun k _ => ?_
  have hk := contrEquiv1_symm_val d K (nt_rank_contr_one d hlc) (nt_size_contr_zero d hlc) k
  congr 1
  · refine congrArg lhs (funext fun a => Fin.ext ?_)
    match a with
    | ⟨0, _⟩ => exact nt_lhs_row d hln hlb _ _
    | ⟨1, _⟩ => exact (d.lhsIdx_val_of_single hlc _ _).trans hk
  · refine congrArg rhs (funext fun a => Fin.ext ?_)
    match a with
    | ⟨0, _⟩ => exact nt_rhs_row d hln hrn hlb hrb _ _
    | ⟨1, _⟩ => exact (d.rhsIdx_val_of_single hrc _ _).trans hk

include hlc hrc hln hrn hlb hrb in
/-- The matrix unit's product into the zero accumulator at entry (r, q). -/
theorem nt_matmul_zero_apply {φ₁ φ₂ : FTy} (prec : Option ContractPrecision) (lhs : FVec Ideal ⟨2, ![M, K]⟩ φ₁)
    (rhs : FVec Ideal ⟨2, ![N, K]⟩ φ₂) (r : Fin M) (q : Fin N) :
    FloatOps.matmul d prec lhs rhs (constant ⟨2, ![M, N]⟩ .f32 0x00000000#32) (ix2 r q)
      = ∑ k : Fin K, lhs (ix2 r k) * rhs (ix2 q k) := by
  rw [Ideal.matmul_constant_zero_apply]
  exact nt_sum_apply d hlc hrc hln hrn hlb hrb lhs rhs r q

include hlc hrc hln hrn hlb hrb in
/-- The host's dot_general at entry (r, q). -/
theorem nt_dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (q : Fin N) :
    FloatOps.dotGeneral d prec sched lhs rhs (ix2 r q) = ∑ k : Fin K, lhs (ix2 r k) * rhs (ix2 q k) := by
  rw [Ideal.dotGeneral_apply]
  exact nt_sum_apply d hlc hrc hln hrn hlb hrb lhs rhs r q

end NT

section Plain

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem plain_rank_contr_one : d.contr.rank = 1 := by rw [d.rank_contr, hlc]; rfl

include hlc in
theorem plain_size_contr_zero : d.contr.size ⟨0, by rw [plain_rank_contr_one d hlc]; exact Nat.one_pos⟩ = K := by
  have := d.size_contr 0 (by rw [hlc]; exact Nat.one_pos)
  rw [this]
  simp [hlc]

include hln hlb in
theorem plain_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
theorem plain_rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The host's dot_general with the plain dimension numbers at entry (r, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral d prec sched lhs rhs (ix2 r q) = ∑ k : Fin K, lhs (ix2 r k) * rhs (ix2 k q) := by
  rw [Ideal.dotGeneral_apply,
    ← Equiv.sum_comp (contrEquiv1 d K (plain_rank_contr_one d hlc) (plain_size_contr_zero d hlc)).symm]
  refine Finset.sum_congr rfl fun k _ => ?_
  have hk := contrEquiv1_symm_val d K (plain_rank_contr_one d hlc) (plain_size_contr_zero d hlc) k
  congr 1
  · refine congrArg lhs (funext fun a => Fin.ext ?_)
    match a with
    | ⟨0, _⟩ => exact plain_lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact plain_rhs_col d hln hrn hlb hrb _ _

end Plain

end Cert.LibDotsNT

end
-- ==== Proof.RefEntry.lean ====
/-
  THE REFERENCE'S OUTPUT AT AN ENTRY.

  The reference aggregates the [50000, 256] table a third time in both directions, lays the two results side by side as
  a [50000, 512] array, multiplies by the transposed weight matrix and adds the bias. At (i, o) its output is the sum over
  the 512 columns k of joined(i, k) * W(o, k), plus bias(o); a column k below 256 of the joined array is the aggregation
  over the edges ending at i, a column 256 + k the aggregation over the edges starting at i.
-/
import proofs.«126144_j67336497266901_2_alg».proof.Proof.RefDefs
import proofs.«126144_j67336497266901_2_alg».proof.Proof.LibMeanStep
import proofs.«126144_j67336497266901_2_alg».proof.Proof.LibConcatCols
import proofs.«126144_j67336497266901_2_alg».proof.Proof.LibDotsNT

set_option maxRecDepth 16384

noncomputable section

open scoped BigOperators

namespace Cert.ReferenceIdeal.Entry

open Cert.ReferenceIdeal Cert.ReferenceIdeal.Facts₀ Cert.ReferenceIdeal.Spec Idealize.ShloMosaic Idealize.ShloMosaic.ValueIdx
open Cert.MeanAgg

/-- One aggregation step of a 256-column table at (i, k). -/
theorem step256_apply (T : FVec Ideal S50000x256 .f32) (g sc : IVec S800000x1 32) (iv : FVec Ideal S50000 .f32)
    (i : Fin 50000) (k : Fin 256) :
    step256 (F := Ideal) T g sc iv (ix2 i k) = aggAt (N := 50000) (E := 800000) (C := 256) (by decide) T g sc iv i k := by
  unfold step256
  exact hostAgg_apply (N := 50000) (E := 800000) (C := 256) (by decide)
    gather_S50000x256_S800000x1_S800000x256_1_0_n_n_0_1_1256.wf scatter_S50000x256_S800000x1_S800000x256_1_0_0_1.wf
    bcast_S_S50000x256 bcast_S50000_S50000x1_0 bcast_S50000x1_S50000x256_0_1 T g sc iv i k

variable (x0 : FVec Ideal S50000x64 .f32) (x1 : IVec S2x800000 32) (x2 : FVec Ideal S128x512 .f32)
  (x3 : FVec Ideal S128 .f32)

/-- The output at (i, o): the joined row against row o of the weights, plus the bias. -/
theorem out_apply (i : Fin 50000) (o : Fin 128) :
    out (F := Ideal) x0 x1 x2 x3 (ix2 i o)
      = (∑ k : Fin 512, hop256 (F := Ideal) (table x0 x1) (srcV x1) (dstV x1) (invDeg (dstV x1)) (invDeg (srcV x1)) (ix2 i k)
          * x2 (ix2 o k)) + x3 (ix1 o) := by
  unfold out
  rw [addf_apply]
  refine congrArg₂ (· + ·) ?_ ?_
  · refine (Cert.LibDotsNT.plain_dotGeneral_apply dot_S50000x512_S512x128_S50000x128_1_0_0_1_n_n rfl rfl rfl rfl rfl rfl
      none _ _ _ i o).trans (Finset.sum_congr rfl fun k _ => ?_)
    rw [transpose_apply [1, 0] x2 transposes_S128x512_S512x128_1_0 (ix2 k o) (ix2 o k) (fun b => by
      match b with
      | ⟨0, _⟩ => rfl
      | ⟨1, _⟩ => rfl)]
  · rw [broadcastInDim_apply ![0, 1] bcast_S1x128_S50000x128_0_1 _ (ix2 i o) (ix2 (0 : Fin 1) o) (fun a => by
        match a with
        | ⟨0, _⟩ => rfl
        | ⟨1, _⟩ => rfl),
      broadcastInDim_apply ![1] bcast_S128_S1x128_1 x3 (ix2 (0 : Fin 1) o) (ix1 o) (fun a => by
        match a with
        | ⟨0, _⟩ => rfl)]

/-- A left column of the joined array is the aggregation over the edges that end at the node. -/
theorem joined_left (T : FVec Ideal S50000x256 .f32) (s d : IVec S800000 32) (ii io : FVec Ideal S50000 .f32) (i : Fin 50000) (k : Fin 256) (k' : Fin 512)
    (hk : k.val = k'.val) :
    hop256 (F := Ideal) T s d ii io (ix2 i k')
      = aggAt (N := 50000) (E := 800000) (C := 256) (by decide) T (wrapCol s) (col d) ii i k := by
  unfold hop256
  rw [Cert.LibConcatCols.cols_left _ _ _ i k' k hk]
  exact step256_apply _ _ _ _ i k

/-- A right column is the aggregation over the edges that start at the node. -/
theorem joined_right (T : FVec Ideal S50000x256 .f32) (s d : IVec S800000 32) (ii io : FVec Ideal S50000 .f32) (i : Fin 50000) (k : Fin 256) (k' : Fin 512)
    (hk : k.val + 256 = k'.val) :
    hop256 (F := Ideal) T s d ii io (ix2 i k')
      = aggAt (N := 50000) (E := 800000) (C := 256) (by decide) T (wrapCol d) (col s) io i k := by
  unfold hop256
  rw [Cert.LibConcatCols.cols_right _ _ _ i k' k hk]
  exact step256_apply _ _ _ _ i k

end Cert.ReferenceIdeal.Entry

end
-- ==== Proof.LibRealArrays.lean ====
/-
  ARRAYS WHOSE ENTRIES ARE ALL REAL NUMBERS.

  The host operations a neighbour aggregation is made of keep the property "every entry is a real number": a
  constant zero or one, a broadcast, a gather (each entry is an entry of the table), an accumulating scatter (each
  entry is an operand entry plus a finite sum of updates), a product, a sum, the reciprocal of a count clamped below
  at one, and two arrays laid side by side. None of this depends on which rows the index arrays select.
-/
import Idealize.ShloMosaic.PureOps.Ideal
import Idealize.ShloMosaic.PureOps.Ideal.Laws
import Idealize.ShloMosaic.Lib.IdealHost
import Idealize.ShloMosaic.Lib.ValueIdx
import Idealize.ShloMosaic.Lib.Pipeline.Value
import proofs.«126144_j67336497266901_2_alg».proof.Proof.LibRealSums
import proofs.«126144_j67336497266901_2_alg».proof.Proof.LibConcatCols
import proofs.«126144_j67336497266901_2_alg».proof.Proof.LibMeanStep

noncomputable section

open scoped BigOperators

namespace Cert.MeanAgg

open Idealize.ShloMosaic Idealize.ShloMosaic.ValueIdx Cert.LibRealSums

/-- The constant zero array. -/
theorem allReal_zero {s : Shape} : AllReal (constant (F := Ideal) s .f32 0x00000000#32) := fun _ => by
  rw [constant_apply, Ideal.ofBits_zero_f32]; exact isReal_zero

/-- The constant one array. -/
theorem allReal_one {s : Shape} : AllReal (constant (F := Ideal) s .f32 0x3F800000#32) := fun _ => by
  rw [constant_apply, Ideal.ofBits_one_f32]; exact isReal_one

/-- A broadcast reads entries of its operand. -/
theorem allReal_bcast {s t : Shape} (dims : Fin s.rank → Fin t.rank) (h : s.BroadcastsInDim t dims)
    (x : FVec Ideal s .f32) (hx : AllReal x) : AllReal (broadcastInDim t dims h x) := fun j => by
  unfold broadcastInDim; exact hx _

/-- A gather reads entries of its table. -/
theorem allReal_gather {s si t : Shape} {w : Nat} (d : GatherDims s si t) (x : FVec Ideal s .f32) (idx : IVec si w)
    (hx : AllReal x) : AllReal (Host.gather d x idx) := fun j => by
  unfold Host.gather; exact hx _

/-- An accumulating scatter adds finitely many updates to each operand entry. -/
theorem allReal_scatterAdd {s si su : Shape} {w : Nat} (d : ScatterDims s si su) (x : FVec Ideal s .f32)
    (idx : IVec si w) (u : FVec Ideal su .f32) (hx : AllReal x) (hu : AllReal u) :
    AllReal (Host.scatterAdd (F := Ideal) d x idx u) := fun i => by
  show IsReal (x i + ∑ j ∈ Finset.univ.filter (fun j => d.resultIdx? j idx = some i), u j)
  exact isReal_add (hx i) (isReal_sum _ _ fun j _ => hu j)

/-- A product of real arrays. -/
theorem allReal_mulf {s : Shape} (a b : FVec Ideal s .f32) (ha : AllReal a) (hb : AllReal b) : AllReal (mulf a b) :=
  fun i => isReal_mul (ha i) (hb i)

/-- One over the larger of a real array and one. -/
theorem allReal_invClamp {s : Shape} (a d o : FVec Ideal s .f32) (ha : ∀ i, a i = 1) (ho : ∀ i, o i = 1)
    (hd : AllReal d) : AllReal (Host.divf a (maximumf d o)) := fun i => by
  show IsReal (Ideal.div (a i) (max (d i) (o i)))
  rw [ha, ho]; exact isReal_invDeg _ (hd i)

/-- Two real arrays laid side by side. -/
theorem allReal_cols {K N₁ N₂ N : Nat} (hN : N = N₁ + N₂) (a : FVec Ideal ⟨2, ![K, N₁]⟩ .f32)
    (b : FVec Ideal ⟨2, ![K, N₂]⟩ .f32)
    (h : Shape.Concatenates [(⟨2, ![K, N₁]⟩ : Shape), ⟨2, ![K, N₂]⟩] ⟨2, ![K, N]⟩ 1)
    (ha : AllReal a) (hb : AllReal b) :
    AllReal (concatenate ⟨2, ![K, N]⟩ 1 [⟨⟨2, ![K, N₁]⟩, a⟩, ⟨⟨2, ![K, N₂]⟩, b⟩] h) := fun j => by
  obtain ⟨k, q, rfl⟩ : ∃ (k : Fin K) (q : Fin N), j = ix2 k q := ⟨j 0, j 1, eq_ix2 j⟩
  by_cases hq : q.val < N₁
  · rw [Cert.LibConcatCols.cols_left a b h k q ⟨q.val, hq⟩ rfl]; exact ha _
  · have hlt : q.val - N₁ < N₂ := by have := q.isLt; omega
    rw [Cert.LibConcatCols.cols_right a b h k q ⟨q.val - N₁, hlt⟩ (by show q.val - N₁ + N₁ = q.val; omega)]
    exact hb _

end Cert.MeanAgg

end
-- ==== Proof.RefReal.lean ====
/-
  THE REFERENCE'S INTERMEDIATE ARRAYS ARE REAL.

  Over a real feature array, the reciprocals of the clamped in- and out-degrees are real, and so is every array the
  first two aggregation hops produce: each hop gathers rows of a real table, adds them into a zero table, scales the
  rows by a real reciprocal, and lays the two directions side by side.
-/
import proofs.«126144_j67336497266901_2_alg».proof.Proof.RefDefs
import proofs.«126144_j67336497266901_2_alg».proof.Proof.LibRealArrays

noncomputable section

namespace Cert.ReferenceIdeal.Reals

open Cert.ReferenceIdeal Cert.ReferenceIdeal.Facts₀ Cert.ReferenceIdeal.Spec Idealize.ShloMosaic Idealize.ShloMosaic.ValueIdx
open Cert.MeanAgg Cert.LibRealSums

/-- One scaled scatter of gathered rows keeps real entries, whatever the shapes and the dimension numbers. -/
theorem allReal_scaled {s si t sv sc : Shape} {w : Nat} (dS : ScatterDims s si t) (dG : GatherDims s si t)
    (hz : S_.BroadcastsInDim s ![]) {d1 : Fin sv.rank → Fin sc.rank} (h1 : sv.BroadcastsInDim sc d1)
    {d2 : Fin sc.rank → Fin s.rank} (h2 : sc.BroadcastsInDim s d2)
    (tbl : FVec Ideal s .f32) (gidx sidx : IVec si w) (iv : FVec Ideal sv .f32) (ht : AllReal tbl) (hi : AllReal iv) :
    AllReal (mulf (Host.scatterAdd (F := Ideal) dS (broadcastInDim s ![] hz (constant (F := Ideal) S_ .f32 0x00000000#32))
      sidx (Host.gather dG tbl gidx)) (broadcastInDim s d2 h2 (broadcastInDim sc d1 h1 iv))) :=
  allReal_mulf _ _ (allReal_scatterAdd _ _ _ _ (allReal_bcast _ _ _ allReal_zero) (allReal_gather _ _ _ ht))
    (allReal_bcast _ _ _ (allReal_bcast _ _ _ hi))

/-- A scalar one spread over a shape reads one everywhere. -/
theorem ones_apply {t : Shape} (hz : S_.BroadcastsInDim t ![]) (j : t.Idx) :
    broadcastInDim t ![] hz (constant (F := Ideal) S_ .f32 0x3F800000#32) j = 1 := by
  rw [scalar_apply, constant_apply, Ideal.ofBits_one_f32]

/-- The reciprocal of a clamped count of edges. -/
theorem allReal_inv (d : IVec S800000 32) : AllReal (s := S50000) (invDeg (F := Ideal) d) := by
  unfold invDeg
  exact allReal_invClamp _ _ _ (ones_apply _) (ones_apply _)
    (allReal_scatterAdd _ _ _ _ (allReal_bcast _ _ _ allReal_zero) (allReal_bcast _ _ _ allReal_one))

/-- One hop of a real 64-column table. -/
theorem allReal_hop64 (T : FVec Ideal S50000x64 .f32) (s d : IVec S800000 32) (ii io : FVec Ideal S50000 .f32)
    (hT : AllReal (s := S50000x64) T) (hii : AllReal (s := S50000) ii) (hio : AllReal (s := S50000) io) :
    AllReal (s := S50000x128) (hop64 (F := Ideal) T s d ii io) := by
  unfold hop64 step64
  exact allReal_cols rfl _ _ _ (allReal_scaled _ _ _ _ _ _ _ _ _ hT hii) (allReal_scaled _ _ _ _ _ _ _ _ _ hT hio)

/-- One hop of a real 128-column table. -/
theorem allReal_hop128 (T : FVec Ideal S50000x128 .f32) (s d : IVec S800000 32) (ii io : FVec Ideal S50000 .f32)
    (hT : AllReal (s := S50000x128) T) (hii : AllReal (s := S50000) ii) (hio : AllReal (s := S50000) io) :
    AllReal (s := S50000x256) (hop128 (F := Ideal) T s d ii io) := by
  unfold hop128 step128
  exact allReal_cols rfl _ _ _ (allReal_scaled _ _ _ _ _ _ _ _ _ hT hii) (allReal_scaled _ _ _ _ _ _ _ _ _ hT hio)

/-- The table after two hops from real features. -/
theorem allReal_table (x0 : FVec Ideal S50000x64 .f32) (x1 : IVec S2x800000 32) (h0 : AllReal (s := S50000x64) x0) :
    AllReal (s := S50000x256) (table (F := Ideal) x0 x1) := by
  unfold table
  exact allReal_hop128 _ _ _ _ _ (allReal_hop64 _ _ _ _ _ h0 (allReal_inv _) (allReal_inv _)) (allReal_inv _) (allReal_inv _)

end Cert.ReferenceIdeal.Reals

end
-- ==== Proof.LibProjection.lean ====
/-
  THE PROJECTION PUSHED THROUGH THE LAST AGGREGATION.

  A node's final features are two aggregated rows laid side by side — n columns from the edges that end at the node,
  n from the edges that start there — and the output is that row of 2n entries against a column of 2n weights, plus
  a bias. Each aggregated entry is (0 + a sum over a set of edges of a table entry) times a per-node scale. When
  every table entry, weight and scale is a real number the scale and the sum over the edges move out of the sum
  over the columns: the output is the aggregate of the projected rows, which is how the kernel computes it. The law
  behind this is distributivity, which holds on the real numbers and fails on the extended reals at large.
-/
import Mathlib.Algebra.BigOperators.Fin
import proofs.«126144_j67336497266901_2_alg».proof.Proof.LibRealSums

open scoped BigOperators

namespace Cert.Projection

open Cert.LibRealSums

/-- A sum over 2n indices is the sum over the first n plus the sum over the last n. -/
theorem sum_halves {n : Nat} (f : Fin (n + n) → EReal) :
    ∑ k, f k = ∑ k : Fin n, f (Fin.castAdd n k) + ∑ k : Fin n, f (Fin.natAdd n k) :=
  Fin.sum_univ_add f

/-- A row of two aggregates side by side against a column of weights, plus a bias, is the sum of the two
    aggregates of the projected table rows, plus the bias. -/
theorem push {ι₁ ι₂ : Type} {n : Nat} (S₁ : Finset ι₁) (S₂ : Finset ι₂)
    (a₁ : ι₁ → Fin n → EReal) (a₂ : ι₂ → Fin n → EReal) (w : Fin (n + n) → EReal) (v₁ v₂ b : EReal)
    (ha₁ : ∀ e k, IsReal (a₁ e k)) (ha₂ : ∀ e k, IsReal (a₂ e k)) (hw : ∀ k, IsReal (w k))
    (hv₁ : IsReal v₁) (hv₂ : IsReal v₂)
    (A : Fin (n + n) → EReal)
    (hA₁ : ∀ k : Fin n, A (Fin.castAdd n k) = (0 + ∑ e ∈ S₁, a₁ e k) * v₁)
    (hA₂ : ∀ k : Fin n, A (Fin.natAdd n k) = (0 + ∑ e ∈ S₂, a₂ e k) * v₂) :
    (∑ k, A k * w k) + b
      = ((0 + ∑ e ∈ S₁, ∑ k : Fin n, a₁ e k * w (Fin.castAdd n k)) * v₁
          + (0 + ∑ e ∈ S₂, ∑ k : Fin n, a₂ e k * w (Fin.natAdd n k)) * v₂) + b := by
  rw [sum_halves]
  simp only [hA₁, hA₂]
  rw [agg_law S₁ a₁ (fun k => w (Fin.castAdd n k)) v₁ ha₁ (fun k => hw _) hv₁,
    agg_law S₂ a₂ (fun k => w (Fin.natAdd n k)) v₂ ha₂ (fun k => hw _) hv₂]

end Cert.Projection
-- ==== Proof.Bridge.lean ====
/-
  THE TWO RESULTS ARE ONE FUNCTION OF THE ARGUMENTS.

  Write H for the [50000, 256] table after two hops, W for the [128, 512] weights, v and v' for the reciprocal
  in- and out-degrees. The reference aggregates H in both directions, joins the two [50000, 256] results, multiplies by
  the transposed weights and adds the bias. The kernel multiplies H by the joined matrix of W's two transposed column
  ranges first, cuts the product into its halves, aggregates the left half over the edges in one direction and the right
  half over the edges in the other, adds the two and adds the bias. At entry (i, o) both are

      (0 + sum over edges e ending at i of sum over k of H(row(e), k) W(o, k)) v(i)
    + (0 + sum over edges e starting at i of sum over k of H(row'(e), k) W(o, 256 + k)) v'(i) + bias(o),

  the reference by distributivity over real entries (the scale and the sum over the edges move out of the sum over
  the columns), the kernel by reading its product, its slices and its joined matrix at an entry.
-/
import proofs.«126144_j67336497266901_2_alg».proof.Proof.KernelGemm
import proofs.«126144_j67336497266901_2_alg».proof.Proof.KernelTail
import proofs.«126144_j67336497266901_2_alg».proof.Proof.KernelEntry
import proofs.«126144_j67336497266901_2_alg».proof.Proof.RefEntry
import proofs.«126144_j67336497266901_2_alg».proof.Proof.RefReal
import proofs.«126144_j67336497266901_2_alg».proof.Proof.LibProjection

set_option maxRecDepth 16384

noncomputable section

open scoped BigOperators

namespace Cert.Bridge

open Idealize.ShloMosaic Idealize.ShloMosaic.ValueIdx
open Cert.ReferenceIdeal Cert.ReferenceIdeal.Spec Cert.ReferenceIdeal.Entry Cert.ReferenceIdeal.Reals
open Cert.MeanAgg Cert.LibAggRows Cert.LibRealSums

variable (a0 : FVec Ideal S50000x64 .f32) (a1 : IVec S2x800000 32) (a2 : FVec Ideal S128x512 .f32)
  (a3 : FVec Ideal S128 .f32)

/-- The region's product, as the lines after the region read it. -/
abbrev P : FVec Ideal S50000x256 .f32 :=
  Cert.KernelIdeal.Region.prod (table (F := Ideal) a0 a1) (Cert.KernelIdeal.Entry.wcat a2)

/-- The left half of the product at (r, o): row r of H against row o of W's first 256 columns. -/
theorem left_half (r : Fin 50000) (o : Fin 128) :
    extractStridedSlice Cert.KernelIdeal.S50000x128 ![0, 0] (P a0 a1 a2) Cert.KernelIdeal.Facts₀.slices_S50000x256_S50000x128_0_0
        (ix2 r o)
      = ∑ k : Fin 256, table (F := Ideal) a0 a1 (ix2 r k) * a2 (ix2 o (Fin.castAdd 256 k)) := by
  rw [Cert.KernelIdeal.Entry.left_apply _ r o ⟨o.val, by have := o.isLt; omega⟩ rfl]
  show ∑ k : Fin 256, table (F := Ideal) a0 a1 (ix2 r k)
      * Cert.KernelIdeal.Entry.wcat a2 (ix2 k (⟨o.val, by have := o.isLt; omega⟩ : Fin 256)) = _
  exact Finset.sum_congr rfl fun k _ => congrArg _
    (Cert.KernelIdeal.Entry.wcat_left a2 k ⟨o.val, by have := o.isLt; omega⟩ o (Fin.castAdd 256 k) rfl rfl)

/-- The right half at (r, o): row r of H against row o of W's last 256 columns. -/
theorem right_half (r : Fin 50000) (o : Fin 128) :
    extractStridedSlice Cert.KernelIdeal.S50000x128 ![0, 128] (P a0 a1 a2) Cert.KernelIdeal.Facts₀.slices_S50000x256_S50000x128_0_128
        (ix2 r o)
      = ∑ k : Fin 256, table (F := Ideal) a0 a1 (ix2 r k) * a2 (ix2 o (Fin.natAdd 256 k)) := by
  rw [Cert.KernelIdeal.Entry.right_apply _ r o ⟨128 + o.val, by have := o.isLt; omega⟩ rfl]
  show ∑ k : Fin 256, table (F := Ideal) a0 a1 (ix2 r k)
      * Cert.KernelIdeal.Entry.wcat a2 (ix2 k (⟨128 + o.val, by have := o.isLt; omega⟩ : Fin 256)) = _
  exact Finset.sum_congr rfl fun k _ => congrArg _
    (Cert.KernelIdeal.Entry.wcat_right a2 k ⟨128 + o.val, by have := o.isLt; omega⟩ o (Fin.natAdd 256 k)
      (by show o.val + 128 = 128 + o.val; omega) rfl)

/-- The kernel's result is the reference's, over real features and real weights. -/
theorem result_eq (h0 : AllReal (s := S50000x64) a0) (h2 : AllReal (s := S128x512) a2) :
    Cert.KernelIdeal.Tail.tail (F := Ideal) (P a0 a1 a2) (srcV a1) (dstV a1) (invDeg (F := Ideal) (dstV a1))
        (invDeg (F := Ideal) (srcV a1)) a3
      = out (F := Ideal) a0 a1 a2 a3 := by
  funext j
  obtain ⟨i, o, rfl⟩ : ∃ (i : Fin 50000) (o : Fin 128), j = ix2 i o := ⟨j 0, j 1, eq_ix2 j⟩
  rw [Cert.KernelIdeal.Tail.tail_apply, out_apply]
  have hpush := Cert.Projection.push (n := 256)
    (Finset.univ.filter (fun e : Fin 800000 => dstRow? 50000 (col (dstV a1)) e = some i))
    (Finset.univ.filter (fun e : Fin 800000 => dstRow? 50000 (col (srcV a1)) e = some i))
    (fun e k => table (F := Ideal) a0 a1 (ix2 (srcRow 50000 (by decide) (wrapCol (srcV a1)) e) k))
    (fun e k => table (F := Ideal) a0 a1 (ix2 (srcRow 50000 (by decide) (wrapCol (dstV a1)) e) k))
    (fun k => a2 (ix2 o k)) (invDeg (F := Ideal) (dstV a1) (ix1 i)) (invDeg (F := Ideal) (srcV a1) (ix1 i)) (a3 (ix1 o))
    (fun e k => allReal_table a0 a1 h0 _) (fun e k => allReal_table a0 a1 h0 _) (fun k => h2 _)
    (allReal_inv _ _) (allReal_inv _ _)
    (fun k => hop256 (F := Ideal) (table a0 a1) (srcV a1) (dstV a1) (invDeg (dstV a1)) (invDeg (srcV a1)) (ix2 i k))
    (fun k => joined_left _ _ _ _ _ i k (Fin.castAdd 256 k) rfl)
    (fun k => joined_right _ _ _ _ _ i k (Fin.natAdd 256 k) (by show k.val + 256 = 256 + k.val; omega))
  refine Eq.trans ?_ hpush.symm
  have c1 : Cert.KernelIdeal.Tail.wrapCol (srcV a1) = wrapCol (srcV a1) := rfl
  have c2 : Cert.KernelIdeal.Tail.col (dstV a1) = col (dstV a1) := rfl
  have c3 : Cert.KernelIdeal.Tail.wrapCol (dstV a1) = wrapCol (dstV a1) := rfl
  have c4 : Cert.KernelIdeal.Tail.col (srcV a1) = col (srcV a1) := rfl
  rw [c1, c2, c3, c4]
  unfold aggAt
  simp only [left_half, right_half]

end Cert.Bridge

end
-- ==== Proof.LibPreDecode.lean ====
/-
  A precondition's conjuncts read back, element by element.

  A precondition written as a conjunction of `jnp.all` tests prints as a chain of `and`s of whole-array reductions by
  `and`, and the claim says the chain is 1. Each reduction that is 1 met only 1s (the library's `Host.reduce_andi_all`);
  what an element being 1 says depends on the test:

  * `|x| < +inf` on a float array, read at the extended reals: the entry is a real number (the only extended reals
    whose absolute value is not the top element) — `all_real`;
  * `(m == 0) | (m == 1)` on an integer array: the entry is the word 0 or the word 1 — `all_zero_or_one` —, and such a
    word converted to a float is the real 0 or 1 — `sitofp_zero_or_one` —, so that it is its own square
    (`mask_idem`).

  Everything is stated over any shapes, the compared constants as arrays with their entries given, so that a
  printed `broadcast_in_dim` of a scalar constant is supplied by `fun _ => rfl`.
-/
import Idealize.ShloMosaic.Lib.ReduceAll
import Idealize.ShloMosaic.PureOps.Ideal
import Idealize.ShloMosaic.PureOps.Ideal.Laws

noncomputable section

namespace Cert.LibPreDecode

open Idealize.ShloMosaic

/-- The f32 word of +inf denotes the top extended real. -/
theorem ofBits_inf : FloatOps.ofBits (F := Ideal) .f32 0x7F800000#32 = (⊤ : EReal) := by
  simp [Ideal.ofBits, Ideal.ieee]

/-- An extended real whose absolute value lies strictly below the top is a real number. -/
theorem exists_real_of_abs_lt_top (x : EReal) (h : max x (-x) < ⊤) : ∃ r : ℝ, x = (r : EReal) := by
  induction x using EReal.rec with
  | bot => simp at h
  | coe r => exact ⟨r, rfl⟩
  | top => simp at h

/-- One entry of the test `|x| < +inf` being 1 says the entry is a real number. -/
theorem real_of_abs_lt_inf (x y : Ideal .f32) (hy : y = FloatOps.ofBits (F := Ideal) .f32 0x7F800000#32)
    (h : FloatOps.cmpf (F := Ideal) .olt (FloatOps.hostAbsf x) y = 1#1) : ∃ r : ℝ, x = (r : EReal) := by
  rw [hy, ofBits_inf, Ideal.hostAbsf_def, Ideal.cmpf_def, Ideal.absf_def] at h
  refine exists_real_of_abs_lt_top x ?_
  by_contra hlt
  simp [Ideal.cmp, hlt] at h

/-- `jnp.all(|x| < inf)` is 1: every entry of `x` is a real number. -/
theorem all_real {s t u : Shape} {axes : List (Fin s.rank)} [Subsingleton t.Idx]
    (x inf : FVec Ideal s .f32) (hinf : ∀ i, inf i = FloatOps.ofBits (F := Ideal) .f32 0x7F800000#32)
    (init : u.Idx → BitVec 1) (h : s.ReducesTo axes t) (hu : 0 < u.numel) (j : t.Idx)
    (e : Host.reduce IntOp.andi (cmpf .olt (Host.absf x) inf) init h hu j = 1#1) (i : s.Idx) :
    ∃ r : ℝ, x i = (r : EReal) :=
  real_of_abs_lt_inf (x i) (inf i) (hinf i) (Host.reduce_andi_all _ init h hu j e i)

/-- `jnp.all((m == 0) | (m == 1))` is 1: every entry of `m` is the word 0 or the word 1. -/
theorem all_zero_or_one {s t u : Shape} {axes : List (Fin s.rank)} [Subsingleton t.Idx] {w : Nat}
    (m z o : IVec s w) (a b : BitVec w) (hz : ∀ i, z i = a) (ho : ∀ i, o i = b)
    (init : u.Idx → BitVec 1) (h : s.ReducesTo axes t) (hu : 0 < u.numel) (j : t.Idx)
    (e : Host.reduce IntOp.andi (ori (cmpi .eq m z) (cmpi .eq m o)) init h hu j = 1#1) (i : s.Idx) :
    m i = a ∨ m i = b := by
  have h1 : IntOp.ori (IntOp.cmpi .eq (m i) (z i)) (IntOp.cmpi .eq (m i) (o i)) = 1#1 :=
    Host.reduce_andi_all _ init h hu j e i
  rcases IntOp.ori_eq_one.1 h1 with h2 | h2
  · exact Or.inl ((IntOp.cmpi_eq.1 h2).trans (hz i))
  · exact Or.inr ((IntOp.cmpi_eq.1 h2).trans (ho i))

/-- A 32-bit word that is 0 or 1, converted to a float, is the real 0 or the real 1. -/
theorem sitofp_zero_or_one (b : BitVec 32) (h : b = 0#32 ∨ b = 1#32) :
    FloatOps.sitofp (F := Ideal) .f32 b = ((0 : ℝ) : EReal) ∨ FloatOps.sitofp (F := Ideal) .f32 b = ((1 : ℝ) : EReal) := by
  rcases h with rfl | rfl
  · left; show (((0#32 : BitVec 32).toInt : ℝ) : EReal) = _; norm_num
  · right; show (((1#32 : BitVec 32).toInt : ℝ) : EReal) = _; norm_num

/-- A mask entry that is the real 0 or 1 is its own square. -/
theorem mask_idem (x : EReal) (h : x = ((0 : ℝ) : EReal) ∨ x = ((1 : ℝ) : EReal)) : x * x = x := by
  rcases h with rfl | rfl <;> simp

end Cert.LibPreDecode

end
-- ==== Proof.InputsReal.lean ====
/-
  THE PRECONDITION READ BACK: every entry of the three float arguments is a real number.

  The precondition is the conjunction of three tests "all of |x| < +inf", one per float argument, each a reduction by
  "and" of an elementwise comparison, and it says the conjunction is 1. A conjunction that is 1 has both conjuncts 1; a
  reduction by "and" that is 1 met only 1s; and |x| < +inf at an extended real x says x is neither infinity.
-/
import proofs.«126144_j67336497266901_2_alg».proof.Pre_finite_inputs
import Idealize.ShloMosaic.Lib.ReduceAll
import Idealize.ShloMosaic.Lib.Affine
import proofs.«126144_j67336497266901_2_alg».proof.Proof.LibPreDecode
import proofs.«126144_j67336497266901_2_alg».proof.Proof.LibRealSums

noncomputable section

namespace Cert.InputsReal

open Idealize.ShloMosaic Cert.Pre_finite_inputs Cert.LibRealSums

/-- The rank-0 shape has one index. -/
instance : Subsingleton S_.Idx := ⟨fun a b => funext fun d => d.elim0⟩

/-- The precondition being 1 makes every entry of the feature array, the weight matrix and the bias a real number. -/
theorem of_pre [Cert.Pre_finite_inputs.Facts] (a0 : FVec Ideal S50000x64 .f32) (a1 : IVec S2x800000 32)
    (a2 : FVec Ideal S128x512 .f32) (a3 : FVec Ideal S128 .f32)
    (h : Cert.Pre_finite_inputs.fn (F := Ideal) a0 a1 a2 a3 = fun _ => 1#1) :
    (∀ i, IsReal (a0 i)) ∧ (∀ i, IsReal (a2 i)) ∧ (∀ i, IsReal (a3 i)) := by
  have h0 := congrFun h (fun a => a.elim0)
  dsimp only [Cert.Pre_finite_inputs.fn] at h0
  obtain ⟨h01, h3⟩ := IntOp.andi_eq_one.mp h0
  obtain ⟨h0', h2⟩ := IntOp.andi_eq_one.mp h01
  exact ⟨fun i => Cert.LibPreDecode.all_real a0 _ (fun _ => rfl) _ _ _ _ h0' i,
    fun i => Cert.LibPreDecode.all_real a2 _ (fun _ => rfl) _ _ _ _ h2 i,
    fun i => Cert.LibPreDecode.all_real a3 _ (fun _ => rfl) _ _ _ _ h3 i⟩

end Cert.InputsReal

end
-- ==== Proof.KernelValue.lean ====
/-
  THE KERNEL'S RESULT BUFFER AFTER THE RUN.

  The run leaves in the result buffer the lines after the region applied to the region's output array and to buffers the
  lines before the region wrote. The output array is the product of the two-hop table and the joined weight matrix; the
  earlier buffers are the reference's own functions of the arguments. Under the precondition the feature array and the
  weights are real, and the whole is then the reference's output function of the argument arrays.
-/
import proofs.«126144_j67336497266901_2_alg».proof.Proof.KernelGemm
import proofs.«126144_j67336497266901_2_alg».proof.Proof.KernelTail
import proofs.«126144_j67336497266901_2_alg».proof.Proof.KernelPrefix
import proofs.«126144_j67336497266901_2_alg».proof.Proof.Bridge
import proofs.«126144_j67336497266901_2_alg».proof.Proof.InputsReal
import proofs.«126144_j67336497266901_2_alg».proof.Proof.Gen.Pre_finite_inputs

set_option maxRecDepth 16384

noncomputable section

namespace Cert.KernelIdeal.Result

open Cert.KernelIdeal Cert.KernelIdeal.Gen Idealize.ShloMosaic Idealize.ShloMosaic.TcCoe Idealize.SL.Sem

variable (m : (ℓ : Loc nD τ sig) → Buf (Elt Ideal) ℓ)

/-- The result buffer ends at the reference's output function of the kernel's own argument arrays. -/
theorem result_eq (c : Dev nD)
    (hpre : Cert.Pre_finite_inputs.fn (F := Ideal) (m ((c.tc : Thread nD τ).loc main_arg0))
      (m ((c.tc : Thread nD τ).loc main_arg1)) (m ((c.tc : Thread nD τ).loc main_arg2))
      (m ((c.tc : Thread nD τ).loc main_arg3)) = fun _ => 1#1) :
    Pipeline.afterTail₀ cfgs (dats m) 0 (V0 m) [hostOps1] c main_v0
      = Cert.ReferenceIdeal.Spec.out (F := Ideal) (m ((c.tc : Thread nD τ).loc main_arg0))
          (m ((c.tc : Thread nD τ).loc main_arg1)) (m ((c.tc : Thread nD τ).loc main_arg2))
          (m ((c.tc : Thread nD τ).loc main_arg3)) := by
  obtain ⟨h0, h2, -⟩ := Cert.InputsReal.of_pre _ _ _ _ hpre
  rw [Cert.KernelIdeal.Tail.result_eq, Cert.KernelIdeal.Region.final, Cert.KernelIdeal.Prefix.V_v1,
    Cert.KernelIdeal.Prefix.V_v3, Cert.KernelIdeal.Prefix.V_v14, Cert.KernelIdeal.Prefix.V_v18,
    Cert.KernelIdeal.Prefix.V_v72, Cert.KernelIdeal.Prefix.V_v77, V_main_arg3]
  exact Cert.Bridge.result_eq _ _ _ _ h0 h2

end Cert.KernelIdeal.Result

end
-- ==== Proof.lean ====
/-
  Directed neighbour aggregation followed by a linear projection: the kernel against its reference, over the extended
  reals.

  Both programs take node features X [50000, 64], an edge list [2, 800000] of integer words, weights W [128, 512] and a
  bias [128]. Both count in- and out-degrees, clamp them below at one and take reciprocals, and run two aggregation hops
  (each hop gathers the rows the edges read, adds them into the rows the edges land on, scales by the reciprocal degree,
  in both directions, and lays the two results side by side), reaching a table H [50000, 256]. The reference runs a third
  hop to [50000, 512] and then multiplies by the transposed weights and adds the bias. The kernel multiplies H by the
  two transposed halves of W first, in a tiled matrix product over ten row blocks, and aggregates the two 128-column
  halves of that product afterwards.

  The two agree because aggregation is linear: a sum over edges scaled by a per-node factor commutes with a contraction
  over the feature columns. That is distributivity, which fails on the extended reals at infinities, so the precondition is
  used: every feature, weight and bias entry is a real number, hence so is every entry of H and of the reciprocal
  degrees. The edge words are arbitrary; both programs read them through the same operations (negative words wrapped,
  reads clamped into range, out-of-range landings dropped), and nothing here depends on their values.

  The kernels' two frames are the generated ones; the reference's is its run with the result dropped, and the
  idealization rewrote no operation.
-/
import proofs.«126144_j67336497266901_2_alg».proof.Defs
import proofs.«126144_j67336497266901_2_alg».proof.Proof.Gen.Kernel
import proofs.«126144_j67336497266901_2_alg».proof.Proof.Gen.Kernel.Skeleton
import proofs.«126144_j67336497266901_2_alg».proof.Proof.Gen.Kernel.Launch
import proofs.«126144_j67336497266901_2_alg».proof.Proof.Gen.Kernel.Points
import proofs.«126144_j67336497266901_2_alg».proof.Proof.Gen.Kernel.Frame
import proofs.«126144_j67336497266901_2_alg».proof.Proof.Gen.KernelIdeal
import proofs.«126144_j67336497266901_2_alg».proof.Proof.Gen.KernelIdeal.Skeleton
import proofs.«126144_j67336497266901_2_alg».proof.Proof.Gen.KernelIdeal.Launch
import proofs.«126144_j67336497266901_2_alg».proof.Proof.Gen.KernelIdeal.Points
import proofs.«126144_j67336497266901_2_alg».proof.Proof.Gen.KernelIdeal.Frame
import proofs.«126144_j67336497266901_2_alg».proof.Proof.Gen.ReferenceIdeal
import proofs.«126144_j67336497266901_2_alg».proof.Proof.Gen.Pre_finite_inputs
import proofs.«126144_j67336497266901_2_alg».proof.Proof.RefRun
import proofs.«126144_j67336497266901_2_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.HandRun.run (F := Ideal) m ρ)

/-- The idealization rewrote nothing. -/
theorem preserves : Cert.preserves_Kernel_KernelIdeal := trivial

/-- From memories agreeing on the arguments both programs end with the reference's output function of those arguments
    in their result buffers. -/
theorem algebraic : Cert.algebraic_KernelIdeal_ReferenceIdeal := by
  intro m ρ m' ρ' hpre hagree
  refine ⟨fun c => Cert.ReferenceIdeal.Spec.out (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run (Cert.KernelIdeal.defs (F := Ideal)) _ _).mono (fun r h c => ?_) (Cert.KernelIdeal.Gen.run_main m ρ)
    exact ⟨((h c).2 Cert.KernelIdeal.main_v0 (Pipeline.mem_restRefs_of Cert.KernelIdeal.main_v0 (by decide) (by decide))).trans
        (Cert.KernelIdeal.Result.result_eq m c (hpre c)),
      ((h c).2 Cert.KernelIdeal.main_arg0 (Pipeline.mem_restRefs_of Cert.KernelIdeal.main_arg0 (by decide) (by decide))).trans
        (Cert.KernelIdeal.Gen.W_main_arg0 m (Cert.KernelIdeal.Gen.dats m) c),
      ((h c).2 Cert.KernelIdeal.main_arg1 (Pipeline.mem_restRefs_of Cert.KernelIdeal.main_arg1 (by decide) (by decide))).trans
        (Cert.KernelIdeal.Gen.W_main_arg1 m (Cert.KernelIdeal.Gen.dats m) c),
      ((h c).2 Cert.KernelIdeal.main_arg2 (Pipeline.mem_restRefs_of Cert.KernelIdeal.main_arg2 (by decide) (by decide))).trans
        (Cert.KernelIdeal.Gen.W_main_arg2 m (Cert.KernelIdeal.Gen.dats m) c),
      ((h c).2 Cert.KernelIdeal.main_arg3 (Pipeline.mem_restRefs_of Cert.KernelIdeal.main_arg3 (by decide) (by decide))).trans
        (Cert.KernelIdeal.Gen.W_main_arg3 m (Cert.KernelIdeal.Gen.dats m) c)⟩
  · refine (θ_run Cert.ReferenceIdeal.defs _ _).mono (fun _ h c => ⟨?_, (h c).2⟩)
      (Cert.ReferenceIdeal.HandRun.run (F := Ideal) m' ρ')
    rw [(h c).1, (hagree c).1, (hagree c).2.1, (hagree c).2.2.1, (hagree c).2.2.2]

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
